-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x2 : Shape := ⟨3, ![4, 32768, 2]⟩
abbrev S4x32768x32 : Shape := ⟨3, ![4, 32768, 32]⟩
abbrev S53x32 : Shape := ⟨2, ![53, 32]⟩
abbrev S32 : Shape := ⟨1, ![32]⟩
abbrev S4x32768x17 : Shape := ⟨3, ![4, 32768, 17]⟩
abbrev S_ : Shape := ⟨0, ![]⟩

class Facts : Prop where
  bcast_S_S4x32768x2 : S_.BroadcastsInDim S4x32768x2 (![] : Fin 0 → Fin S4x32768x2.rank)
  reducesTo_S4x32768x2_S_d0_1_2 : S4x32768x2.ReducesTo [0, 1, 2] S_
  h_S_ : 0 < S_.numel
  bcast_S_S4x32768x32 : S_.BroadcastsInDim S4x32768x32 (![] : Fin 0 → Fin S4x32768x32.rank)
  reducesTo_S4x32768x32_S_d0_1_2 : S4x32768x32.ReducesTo [0, 1, 2] S_
  bcast_S_S53x32 : S_.BroadcastsInDim S53x32 (![] : Fin 0 → Fin S53x32.rank)
  reducesTo_S53x32_S_d0_1 : S53x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4x32768x2 .f32) (main_arg1 : FVec F S4x32768x32 .f32) (main_arg2 : FVec F S53x32 .f32) (main_arg3 : FVec F S32 .f32) (main_arg4 : IVec S4x32768x17 32) : IVec S_ 1 :=
  let main_v0 : FVec F S4x32768x2 .f32 := Host.absf main_arg0
  let main_cst : FVec F S_ .f32 := constant S_ .f32 0x7F800000#32
  let main_v1 : FVec F S4x32768x2 .f32 := broadcastInDim S4x32768x2 ![] bcast_S_S4x32768x2 main_cst
  let main_v2 : IVec S4x32768x2 1 := cmpf .olt main_v0 main_v1
  let main_c : IVec S_ 1 := constantI S_ 1 1#1
  let main_v3 : IVec S_ 1 := (fun x v => Host.reduce IntOp.andi x v reducesTo_S4x32768x2_S_d0_1_2 h_S_) main_v2 main_c
  let main_v4 : FVec F S4x32768x32 .f32 := Host.absf main_arg1
  let main_cst_0 : FVec F S_ .f32 := constant S_ .f32 0x7F800000#32
  let main_v5 : FVec F S4x32768x32 .f32 := broadcastInDim S4x32768x32 ![] bcast_S_S4x32768x32 main_cst_0
  let main_v6 : IVec S4x32768x32 1 := cmpf .olt main_v4 main_v5
  let main_c_1 : IVec S_ 1 := constantI S_ 1 1#1
  let main_v7 : IVec S_ 1 := (fun x v => Host.reduce IntOp.andi x v reducesTo_S4x32768x32_S_d0_1_2 h_S_) main_v6 main_c_1
  let main_v8 : IVec S_ 1 := andi main_v3 main_v7
  let main_v9 : FVec F S53x32 .f32 := Host.absf main_arg2
  let main_cst_2 : FVec F S_ .f32 := constant S_ .f32 0x7F800000#32
  let main_v10 : FVec F S53x32 .f32 := broadcastInDim S53x32 ![] bcast_S_S53x32 main_cst_2
  let main_v11 : IVec S53x32 1 := cmpf .olt main_v9 main_v10
  let main_c_3 : IVec S_ 1 := constantI S_ 1 1#1
  let main_v12 : IVec S_ 1 := (fun x v => Host.reduce IntOp.andi x v reducesTo_S53x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4x32768x2 : Shape := ⟨3, ![4, 32768, 2]⟩
abbrev S4x32768x32 : Shape := ⟨3, ![4, 32768, 32]⟩
abbrev S53x32 : Shape := ⟨2, ![53, 32]⟩
abbrev S32 : Shape := ⟨1, ![32]⟩
abbrev S4x32768x17 : Shape := ⟨3, ![4, 32768, 17]⟩
abbrev S4 : Shape := ⟨1, ![4]⟩
abbrev S4x1x1 : Shape := ⟨3, ![4, 1, 1]⟩
abbrev S_ : Shape := ⟨0, ![]⟩
abbrev S4x32768x17x1 : Shape := ⟨4, ![4, 32768, 17, 1]⟩
abbrev S4x32768x17x2 : Shape := ⟨4, ![4, 32768, 17, 2]⟩
abbrev S4x32768x17x32 : Shape := ⟨4, ![4, 32768, 17, 32]⟩
abbrev S4x32768x17x64 : Shape := ⟨4, ![4, 32768, 17, 64]⟩
abbrev S1x128x17x2 : Shape := ⟨4, ![1, 128, 17, 2]⟩
abbrev S1x128x17x32 : Shape := ⟨4, ![1, 128, 17, 32]⟩
abbrev S1x128x17x64 : Shape := ⟨4, ![1, 128, 17, 64]⟩
abbrev S128x17x53 : Shape := ⟨3, ![128, 17, 53]⟩
abbrev S128x17x2 : Shape := ⟨3, ![128, 17, 2]⟩
abbrev S128x17 : Shape := ⟨2, ![128, 17]⟩
abbrev S128x17x1 : Shape := ⟨3, ![128, 17, 1]⟩
abbrev S128x1x2 : Shape := ⟨3, ![128, 1, 2]⟩
abbrev S128x17x3 : Shape := ⟨3, ![128, 17, 3]⟩
abbrev S128x17x32 : Shape := ⟨3, ![128, 17, 32]⟩
abbrev S128x1x53 : Shape := ⟨3, ![128, 1, 53]⟩
abbrev S128x53 : Shape := ⟨2, ![128, 53]⟩
abbrev S128x32 : Shape := ⟨2, ![128, 32]⟩
abbrev S1x32 : Shape := ⟨2, ![1, 32]⟩
abbrev S1x128x1x32 : Shape := ⟨4, ![1, 128, 1, 32]⟩
abbrev S128x1x32 : Shape := ⟨3, ![128, 1, 32]⟩

abbrev nBuf : Space → Nat
  | .hbm => 46
  | .vmem => 9
  | .smem => 0
  | _ => 0

abbrev bufTy : (tb : Table) → Fin (tcTables nBuf tb) → BufTy
  | .hbm, ⟨0, _⟩ => ⟨S4x32768x2, .f32⟩
  | .hbm, ⟨1, _⟩ => ⟨S4x32768x32, .f32⟩
  | .hbm, ⟨2, _⟩ => ⟨S53x32, .f32⟩
  | .hbm, ⟨3, _⟩ => ⟨S32, .f32⟩
  | .hbm, ⟨4, _⟩ => ⟨S4x32768x17, .i32⟩
  | .hbm, ⟨5, _⟩ => ⟨S4, .i32⟩
  | .hbm, ⟨6, _⟩ => ⟨S4x1x1, .i32⟩
  | .hbm, ⟨7, _⟩ => ⟨S_, .i32⟩
  | .hbm, ⟨8, _⟩ => ⟨S4x1x1, .i32⟩
  | .hbm, ⟨9, _⟩ => ⟨S4x1x1, .i1⟩
  | .hbm, ⟨10, _⟩ => ⟨S_, .i32⟩
  | .hbm, ⟨11, _⟩ => ⟨S4x1x1, .i32⟩
  | .hbm, ⟨12, _⟩ => ⟨S4x1x1, .i32⟩
  | .hbm, ⟨13, _⟩ => ⟨S4x1x1, .i32⟩
  | .hbm, ⟨14, _⟩ => ⟨S_, .i32⟩
  | .hbm, ⟨15, _⟩ => ⟨S4x32768x17, .i32⟩
  | .hbm, ⟨16, _⟩ => ⟨S4x32768x17, .i1⟩
  | .hbm, ⟨17, _⟩ => ⟨S_, .i32⟩
  | .hbm, ⟨18, _⟩ => ⟨S4x32768x17, .i32⟩
  | .hbm, ⟨19, _⟩ => ⟨S4x32768x17, .i32⟩
  | .hbm, ⟨20, _⟩ => ⟨S4x32768x17, .i32⟩
  | .hbm, ⟨21, _⟩ => ⟨S4x32768x17, .i32⟩
  | .hbm, ⟨22, _⟩ => ⟨S4x32768x17x1, .i32⟩
  | .hbm, ⟨23, _⟩ => ⟨S4x32768x17x1, .i32⟩
  | .hbm, ⟨24, _⟩ => ⟨S4x32768x17x2, .i32⟩
  | .hbm, ⟨25, _⟩ => ⟨S4x32768x17x2, .f32⟩
  | .hbm, ⟨26, _⟩ => ⟨S_, .i32⟩
  | .hbm, ⟨27, _⟩ => ⟨S4x1x1, .i32⟩
  | .hbm, ⟨28, _⟩ => ⟨S4x1x1, .i1⟩
  | .hbm, ⟨29, _⟩ => ⟨S_, .i32⟩
  | .hbm, ⟨30, _⟩ => ⟨S4x1x1, .i32⟩
  | .hbm, ⟨31, _⟩ => ⟨S4x1x1, .i32⟩
  | .hbm, ⟨32, _⟩ => ⟨S4x1x1, .i32⟩
  | .hbm, ⟨33, _⟩ => ⟨S_, .i32⟩
  | .hbm, ⟨34, _⟩ => ⟨S4x32768x17, .i32⟩
  | .hbm, ⟨35, _⟩ => ⟨S4x32768x17, .i1⟩
  | .hbm, ⟨36, _⟩ => ⟨S_, .i32⟩
  | .hbm, ⟨37, _⟩ => ⟨S4x32768x17, .i32⟩
  | .hbm, ⟨38, _⟩ => ⟨S4x32768x17, .i32⟩
  | .hbm, ⟨39, _⟩ => ⟨S4x32768x17, .i32⟩
  | .hbm, ⟨40, _⟩ => ⟨S4x32768x17, .i32⟩
  | .hbm, ⟨41, _⟩ => ⟨S4x32768x17x1, .i32⟩
  | .hbm, ⟨42, _⟩ => ⟨S4x32768x17x1, .i32⟩
  | .hbm, ⟨43, _⟩ => ⟨S4x32768x17x2, .i32⟩
  | .hbm, ⟨44, _⟩ => ⟨S4x32768x17x32, .f32⟩
  | .hbm, ⟨45, _⟩ => ⟨S4x32768x17x64, .f32⟩
  | .local _ .vmem, ⟨0, _⟩ => ⟨S1x128x17x2, .f32⟩
  | .local _ .vmem, ⟨1, _⟩ => ⟨S1x128x17x2, .f32⟩
  | .local _ .vmem, ⟨2, _⟩ => ⟨S1x128x17x32, .f32⟩
  | .local _ .vmem, ⟨3, _⟩ => ⟨S1x128x17x32, .f32⟩
  | .local _ .vmem, ⟨4, _⟩ => ⟨S53x32, .f32⟩
  | .local _ .vmem, ⟨5, _⟩ => ⟨S32, .f32⟩
  | .local _ .vmem, ⟨6, _⟩ => ⟨S1x128x17x64, .f32⟩
  | .local _ .vmem, ⟨7, _⟩ => ⟨S1x128x17x64, .f32⟩
  | .local _ .vmem, ⟨8, _⟩ => ⟨S128x17x53, .f32⟩
  | _, _ => ⟨S4x32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 256], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x17x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x17x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S53x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x17x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x32768x17 : S_.BroadcastsInDim S4x32768x17 (![] : Fin 0 → Fin S4x32768x17.rank)
  bcast_S4x1x1_S4x32768x17_0_1_2 : S4x1x1.BroadcastsInDim S4x32768x17 (![0, 1, 2] : Fin 3 → Fin S4x32768x17.rank)
  bcast_S4x32768x17_S4x32768x17x1_0_1_2 : S4x32768x17.BroadcastsInDim S4x32768x17x1 (![0, 1, 2] : Fin 3 → Fin S4x32768x17x1.rank)
  concatenates_S4x32768x17x1_S4x32768x17x1_S4x32768x17x2_d3 : Shape.Concatenates [S4x32768x17x1, S4x32768x17x1] S4x32768x17x2 3
  inb_S1x128x17x2_S1x128x17x2_0_0_0_0 : ∀ a, (![0, 0, 0, 0] : Fin 4 → Nat) a + S1x128x17x2.size a ≤ S1x128x17x2.size a
  h_S1x128x17x2 : 0 < S1x128x17x2.numel
  shapeCasts_S1x128x17x2_S128x17x2 : S1x128x17x2.ShapeCasts S128x17x2
  reduces_S128x17x2_S128x17 : S128x17x2.Reduces [2] S128x17
  shapeCasts_S128x17_S128x17x1 : S128x17.ShapeCasts S128x17x1
  inb_S128x17x53_S128x17x2_0_0_0 : ∀ a, (![0, 0, 0] : Fin 3 → Nat) a + S128x17x2.size a ≤ S128x17x53.size a
  h_S128x17x2 : 0 < S128x17x2.numel
  shapeCasts_S128x17x2_S128x17x2 : S128x17x2.ShapeCasts S128x17x2
  slices_S128x17x2_o0_0_0_S128x1x2 : S128x17x2.Slices ![0, 0, 0] S128x1x2
  broadcasts_S128x1x2_S128x17x2 : S128x1x2.Broadcasts S128x17x2
  concatenates_S128x17x2_S128x17x1_S128x17x3_d2 : Shape.Concatenates [S128x17x2, S128x17x1] S128x17x3 2
  inb_S128x17x53_S128x17x3_0_0_2 : ∀ a, (![0, 0, 2] : Fin 3 → Nat) a + S128x17x3.size a ≤ S128x17x53.size a
  h_S128x17x3 : 0 < S128x17x3.numel
  shapeCasts_S128x17x3_S128x17x3 : S128x17x3.ShapeCasts S128x17x3
  slices_S128x17x2_o0_1_0_S128x1x2 : S128x17x2.Slices ![0, 1, 0] S128x1x2
  inb_S128x17x53_S128x17x3_0_0_5 : ∀ a, (![0, 0, 5] : Fin 3 → Nat) a + S128x17x3.size a ≤ S128x17x53.size a
  slices_S128x17x2_o0_2_0_S128x1x2 : S128x17x2.Slices ![0, 2, 0] S128x1x2
  inb_S128x17x53_S128x17x3_0_0_8 : ∀ a, (![0, 0, 8] : Fin 3 → Nat) a + S128x17x3.size a ≤ S128x17x53.size a
  slices_S128x17x2_o0_3_0_S128x1x2 : S128x17x2.Slices ![0, 3, 0] S128x1x2
  inb_S128x17x53_S128x17x3_0_0_11 : ∀ a, (![0, 0, 11] : Fin 3 → Nat) a + S128x17x3.size a ≤ S128x17x53.size a
  slices_S128x17x2_o0_4_0_S128x1x2 : S128x17x2.Slices ![0, 4, 0] S128x1x2
  inb_S128x17x53_S128x17x3_0_0_14 : ∀ a, (![0, 0, 14] : Fin 3 → Nat) a + S128x17x3.size a ≤ S128x17x53.size a
  slices_S128x17x2_o0_5_0_S128x1x2 : S128x17x2.Slices ![0, 5, 0] S128x1x2
  inb_S128x17x53_S128x17x3_0_0_17 : ∀ a, (![0, 0, 17] : Fin 3 → Nat) a + S128x17x3.size a ≤ S128x17x53.size a
  slices_S128x17x2_o0_6_0_S128x1x2 : S128x17x2.Slices ![0, 6, 0] S128x1x2
  inb_S128x17x53_S128x17x3_0_0_20 : ∀ a, (![0, 0, 20] : Fin 3 → Nat) a + S128x17x3.size a ≤ S128x17x53.size a
  slices_S128x17x2_o0_7_0_S128x1x2 : S128x17x2.Slices ![0, 7, 0] S128x1x2
  inb_S128x17x53_S128x17x3_0_0_23 : ∀ a, (![0, 0, 23] : Fin 3 → Nat) a + S128x17x3.size a ≤ S128x17x53.size a
  slices_S128x17x2_o0_8_0_S128x1x2 : S128x17x2.Slices ![0, 8, 0] S128x1x2
  inb_S128x17x53_S128x17x3_0_0_26 : ∀ a, (![0, 0, 26] : Fin 3 → Nat) a + S128x17x3.size a ≤ S128x17x53.size a
  slices_S128x17x2_o0_9_0_S128x1x2 : S128x17x2.Slices ![0, 9, 0] S128x1x2
  inb_S128x17x53_S128x17x3_0_0_29 : ∀ a, (![0, 0, 29] : Fin 3 → Nat) a + S128x17x3.size a ≤ S128x17x53.size a
  slices_S128x17x2_o0_10_0_S128x1x2 : S128x17x2.Slices ![0, 10, 0] S128x1x2
  inb_S128x17x53_S128x17x3_0_0_32 : ∀ a, (![0, 0, 32] : Fin 3 → Nat) a + S128x17x3.size a ≤ S128x17x53.size a
  slices_S128x17x2_o0_11_0_S128x1x2 : S128x17x2.Slices ![0, 11, 0] S128x1x2
  inb_S128x17x53_S128x17x3_0_0_35 : ∀ a, (![0, 0, 35] : Fin 3 → Nat) a + S128x17x3.size a ≤ S128x17x53.size a
  slices_S128x17x2_o0_12_0_S128x1x2 : S128x17x2.Slices ![0, 12, 0] S128x1x2
  inb_S128x17x53_S128x17x3_0_0_38 : ∀ a, (![0, 0, 38] : Fin 3 → Nat) a + S128x17x3.size a ≤ S128x17x53.size a
  slices_S128x17x2_o0_13_0_S128x1x2 : S128x17x2.Slices ![0, 13, 0] S128x1x2
  inb_S128x17x53_S128x17x3_0_0_41 : ∀ a, (![0, 0, 41] : Fin 3 → Nat) a + S128x17x3.size a ≤ S128x17x53.size a
  slices_S128x17x2_o0_14_0_S128x1x2 : S128x17x2.Slices ![0, 14, 0] S128x1x2
  inb_S128x17x53_S128x17x3_0_0_44 : ∀ a, (![0, 0, 44] : Fin 3 → Nat) a + S128x17x3.size a ≤ S128x17x53.size a
  slices_S128x17x2_o0_15_0_S128x1x2 : S128x17x2.Slices ![0, 15, 0] S128x1x2
  inb_S128x17x53_S128x17x3_0_0_47 : ∀ a, (![0, 0, 47] : Fin 3 → Nat) a + S128x17x3.size a ≤ S128x17x53.size a
  slices_S128x17x2_o0_16_0_S128x1x2 : S128x17x2.Slices ![0, 16, 0] S128x1x2
  inb_S128x17x53_S128x17x3_0_0_50 : ∀ a, (![0, 0, 50] : Fin 3 → Nat) a + S128x17x3.size a ≤ S128x17x53.size a
  inb_S128x17x53_S128x17x53_0_0_0 : ∀ a, (![0, 0, 0] : Fin 3 → Nat) a + S128x17x53.size a ≤ S128x17x53.size a
  h_S128x17x53 : 0 < S128x17x53.numel
  bitsLt_bf16_f32 : FTy.bits .bf16 < FTy.bits .f32
  inb_S53x32_S53x32_0_0 : ∀ a, (![0, 0] : Fin 2 → Nat) a + S53x32.size a ≤ S53x32.size a
  h_S53x32 : 0 < S53x32.numel
  inb_S32_S32_0 : ∀ a, (![0] : Fin 1 → Nat) a + S32.size a ≤ S32.size a
  h_S32 : 0 < S32.numel
  inb_S1x128x17x32_S1x128x17x32_0_0_0_0 : ∀ a, (![0, 0, 0, 0] : Fin 4 → Nat) a + S1x128x17x32.size a ≤ S1x128x17x32.size a
  h_S1x128x17x32 : 0 < S1x128x17x32.numel
  shapeCasts_S1x128x17x32_S128x17x32 : S1x128x17x32.ShapeCasts S128x17x32
  slices_S128x17x53_o0_0_0_S128x1x53 : S128x17x53.Slices ![0, 0, 0] S128x1x53
  shapeCasts_S128x1x53_S128x53 : S128x1x53.ShapeCasts S128x53
  shapeCasts_S32_S1x32 : S32.ShapeCasts S1x32
  broadcasts_S1x32_S128x32 : S1x32.Broadcasts S128x32
  inb_S1x128x17x64_S1x128x1x32_0_0_0_0 : ∀ a, (![0, 0, 0, 0] : Fin 4 → Nat) a + S1x128x1x32.size a ≤ S1x128x17x64.size a
  h_S1x128x1x32 : 0 < S1x128x1x32.numel
  shapeCasts_S1x128x1x32_S128x32 : S1x128x1x32.ShapeCasts S128x32
  shapeCasts_S128x32_S1x128x1x32 : S128x32.ShapeCasts S1x128x1x32
  slices_S128x17x32_o0_0_0_S128x1x32 : S128x17x32.Slices ![0, 0, 0] S128x1x32
  shapeCasts_S128x1x32_S128x32 : S128x1x32.ShapeCasts S128x32
  inb_S1x128x17x64_S1x128x1x32_0_0_0_32 : ∀ a, (![0, 0, 0, 32] : Fin 4 → Nat) a + S1x128x1x32.size a ≤ S1x128x17x64.size a
  slices_S128x17x53_o0_1_0_S128x1x53 : S128x17x53.Slices ![0, 1, 0] S128x1x53
  inb_S1x128x17x64_S1x128x1x32_0_0_1_0 : ∀ a, (![0, 0, 1, 0] : Fin 4 → Nat) a + S1x128x1x32.size a ≤ S1x128x17x64.size a
  slices_S128x17x32_o0_1_0_S128x1x32 : S128x17x32.Slices ![0, 1, 0] S128x1x32
  inb_S1x128x17x64_S1x128x1x32_0_0_1_32 : ∀ a, (![0, 0, 1, 32] : Fin 4 → Nat) a + S1x128x1x32.size a ≤ S1x128x17x64.size a
  slices_S128x17x53_o0_2_0_S128x1x53 : S128x17x53.Slices ![0, 2, 0] S128x1x53
  inb_S1x128x17x64_S1x128x1x32_0_0_2_0 : ∀ a, (![0, 0, 2, 0] : Fin 4 → Nat) a + S1x128x1x32.size a ≤ S1x128x17x64.size a
  slices_S128x17x32_o0_2_0_S128x1x32 : S128x17x32.Slices ![0, 2, 0] S128x1x32
  inb_S1x128x17x64_S1x128x1x32_0_0_2_32 : ∀ a, (![0, 0, 2, 32] : Fin 4 → Nat) a + S1x128x1x32.size a ≤ S1x128x17x64.size a
  slices_S128x17x53_o0_3_0_S128x1x53 : S128x17x53.Slices ![0, 3, 0] S128x1x53
  inb_S1x128x17x64_S1x128x1x32_0_0_3_0 : ∀ a, (![0, 0, 3, 0] : Fin 4 → Nat) a + S1x128x1x32.size a ≤ S1x128x17x64.size a
  slices_S128x17x32_o0_3_0_S128x1x32 : S128x17x32.Slices ![0, 3, 0] S128x1x32
  inb_S1x128x17x64_S1x128x1x32_0_0_3_32 : ∀ a, (![0, 0, 3, 32] : Fin 4 → Nat) a + S1x128x1x32.size a ≤ S1x128x17x64.size a
  slices_S128x17x53_o0_4_0_S128x1x53 : S128x17x53.Slices ![0, 4, 0] S128x1x53
  inb_S1x128x17x64_S1x128x1x32_0_0_4_0 : ∀ a, (![0, 0, 4, 0] : Fin 4 → Nat) a + S1x128x1x32.size a ≤ S1x128x17x64.size a
  slices_S128x17x32_o0_4_0_S128x1x32 : S128x17x32.Slices ![0, 4, 0] S128x1x32
  inb_S1x128x17x64_S1x128x1x32_0_0_4_32 : ∀ a, (![0, 0, 4, 32] : Fin 4 → Nat) a + S1x128x1x32.size a ≤ S1x128x17x64.size a
  slices_S128x17x53_o0_5_0_S128x1x53 : S128x17x53.Slices ![0, 5, 0] S128x1x53
  inb_S1x128x17x64_S1x128x1x32_0_0_5_0 : ∀ a, (![0, 0, 5, 0] : Fin 4 → Nat) a + S1x128x1x32.size a ≤ S1x128x17x64.size a
  slices_S128x17x32_o0_5_0_S128x1x32 : S128x17x32.Slices ![0, 5, 0] S128x1x32
  inb_S1x128x17x64_S1x128x1x32_0_0_5_32 : ∀ a, (![0, 0, 5, 32] : Fin 4 → Nat) a + S1x128x1x32.size a ≤ S1x128x17x64.size a
  slices_S128x17x53_o0_6_0_S128x1x53 : S128x17x53.Slices ![0, 6, 0] S128x1x53
  inb_S1x128x17x64_S1x128x1x32_0_0_6_0 : ∀ a, (![0, 0, 6, 0] : Fin 4 → Nat) a + S1x128x1x32.size a ≤ S1x128x17x64.size a
  slices_S128x17x32_o0_6_0_S128x1x32 : S128x17x32.Slices ![0, 6, 0] S128x1x32
  inb_S1x128x17x64_S1x128x1x32_0_0_6_32 : ∀ a, (![0, 0, 6, 32] : Fin 4 → Nat) a + S1x128x1x32.size a ≤ S1x128x17x64.size a
  slices_S128x17x53_o0_7_0_S128x1x53 : S128x17x53.Slices ![0, 7, 0] S128x1x53
  inb_S1x128x17x64_S1x128x1x32_0_0_7_0 : ∀ a, (![0, 0, 7, 0] : Fin 4 → Nat) a + S1x128x1x32.size a ≤ S1x128x17x64.size a
  slices_S128x17x32_o0_7_0_S128x1x32 : S128x17x32.Slices ![0, 7, 0] S128x1x32
  inb_S1x128x17x64_S1x128x1x32_0_0_7_32 : ∀ a, (![0, 0, 7, 32] : Fin 4 → Nat) a + S1x128x1x32.size a ≤ S1x128x17x64.size a
  slices_S128x17x53_o0_8_0_S128x1x53 : S128x17x53.Slices ![0, 8, 0] S128x1x53
  inb_S1x128x17x64_S1x128x1x32_0_0_8_0 : ∀ a, (![0, 0, 8, 0] : Fin 4 → Nat) a + S1x128x1x32.size a ≤ S1x128x17x64.size a
  slices_S128x17x32_o0_8_0_S128x1x32 : S128x17x32.Slices ![0, 8, 0] S128x1x32
  inb_S1x128x17x64_S1x128x1x32_0_0_8_32 : ∀ a, (![0, 0, 8, 32] : Fin 4 → Nat) a + S1x128x1x32.size a ≤ S1x128x17x64.size a
  slices_S128x17x53_o0_9_0_S128x1x53 : S128x17x53.Slices ![0, 9, 0] S128x1x53
  inb_S1x128x17x64_S1x128x1x32_0_0_9_0 : ∀ a, (![0, 0, 9, 0] : Fin 4 → Nat) a + S1x128x1x32.size a ≤ S1x128x17x64.size a
  slices_S128x17x32_o0_9_0_S128x1x32 : S128x17x32.Slices ![0, 9, 0] S128x1x32
  inb_S1x128x17x64_S1x128x1x32_0_0_9_32 : ∀ a, (![0, 0, 9, 32] : Fin 4 → Nat) a + S1x128x1x32.size a ≤ S1x128x17x64.size a
  slices_S128x17x53_o0_10_0_S128x1x53 : S128x17x53.Slices ![0, 10, 0] S128x1x53
  inb_S1x128x17x64_S1x128x1x32_0_0_10_0 : ∀ a, (![0, 0, 10, 0] : Fin 4 → Nat) a + S1x128x1x32.size a ≤ S1x128x17x64.size a
  slices_S128x17x32_o0_10_0_S128x1x32 : S128x17x32.Slices ![0, 10, 0] S128x1x32
  inb_S1x128x17x64_S1x128x1x32_0_0_10_32 : ∀ a, (![0, 0, 10, 32] : Fin 4 → Nat) a + S1x128x1x32.size a ≤ S1x128x17x64.size a
  slices_S128x17x53_o0_11_0_S128x1x53 : S128x17x53.Slices ![0, 11, 0] S128x1x53
  inb_S1x128x17x64_S1x128x1x32_0_0_11_0 : ∀ a, (![0, 0, 11, 0] : Fin 4 → Nat) a + S1x128x1x32.size a ≤ S1x128x17x64.size a
  slices_S128x17x32_o0_11_0_S128x1x32 : S128x17x32.Slices ![0, 11, 0] S128x1x32
  inb_S1x128x17x64_S1x128x1x32_0_0_11_32 : ∀ a, (![0, 0, 11, 32] : Fin 4 → Nat) a + S1x128x1x32.size a ≤ S1x128x17x64.size a
  slices_S128x17x53_o0_12_0_S128x1x53 : S128x17x53.Slices ![0, 12, 0] S128x1x53
  inb_S1x128x17x64_S1x128x1x32_0_0_12_0 : ∀ a, (![0, 0, 12, 0] : Fin 4 → Nat) a + S1x128x1x32.size a ≤ S1x128x17x64.size a
  slices_S128x17x32_o0_12_0_S128x1x32 : S128x17x32.Slices ![0, 12, 0] S128x1x32
  inb_S1x128x17x64_S1x128x1x32_0_0_12_32 : ∀ a, (![0, 0, 12, 32] : Fin 4 → Nat) a + S1x128x1x32.size a ≤ S1x128x17x64.size a
  slices_S128x17x53_o0_13_0_S128x1x53 : S128x17x53.Slices ![0, 13, 0] S128x1x53
  inb_S1x128x17x64_S1x128x1x32_0_0_13_0 : ∀ a, (![0, 0, 13, 0] : Fin 4 → Nat) a + S1x128x1x32.size a ≤ S1x128x17x64.size a
  slices_S128x17x32_o0_13_0_S128x1x32 : S128x17x32.Slices ![0, 13, 0] S128x1x32
  inb_S1x128x17x64_S1x128x1x32_0_0_13_32 : ∀ a, (![0, 0, 13, 32] : Fin 4 → Nat) a + S1x128x1x32.size a ≤ S1x128x17x64.size a
  slices_S128x17x53_o0_14_0_S128x1x53 : S128x17x53.Slices ![0, 14, 0] S128x1x53
  inb_S1x128x17x64_S1x128x1x32_0_0_14_0 : ∀ a, (![0, 0, 14, 0] : Fin 4 → Nat) a + S1x128x1x32.size a ≤ S1x128x17x64.size a
  slices_S128x17x32_o0_14_0_S128x1x32 : S128x17x32.Slices ![0, 14, 0] S128x1x32
  inb_S1x128x17x64_S1x128x1x32_0_0_14_32 : ∀ a, (![0, 0, 14, 32] : Fin 4 → Nat) a + S1x128x1x32.size a ≤ S1x128x17x64.size a
  slices_S128x17x53_o0_15_0_S128x1x53 : S128x17x53.Slices ![0, 15, 0] S128x1x53
  inb_S1x128x17x64_S1x128x1x32_0_0_15_0 : ∀ a, (![0, 0, 15, 0] : Fin 4 → Nat) a + S1x128x1x32.size a ≤ S1x128x17x64.size a
  slices_S128x17x32_o0_15_0_S128x1x32 : S128x17x32.Slices ![0, 15, 0] S128x1x32
  inb_S1x128x17x64_S1x128x1x32_0_0_15_32 : ∀ a, (![0, 0, 15, 32] : Fin 4 → Nat) a + S1x128x1x32.size a ≤ S1x128x17x64.size a
  slices_S128x17x53_o0_16_0_S128x1x53 : S128x17x53.Slices ![0, 16, 0] S128x1x53
  inb_S1x128x17x64_S1x128x1x32_0_0_16_0 : ∀ a, (![0, 0, 16, 0] : Fin 4 → Nat) a + S1x128x1x32.size a ≤ S1x128x17x64.size a
  slices_S128x17x32_o0_16_0_S128x1x32 : S128x17x32.Slices ![0, 16, 0] S128x1x32
  inb_S1x128x17x64_S1x128x1x32_0_0_16_32 : ∀ a, (![0, 0, 16, 32] : Fin 4 → Nat) a + S1x128x1x32.size a ≤ S1x128x17x64.size a
  gather_S4x32768x2_S4x32768x17x2_S4x32768x17x2_3_01_n_n_01_3_112_wf : GatherDims.WF S4x32768x2 S4x32768x17x2 S4x32768x17x2 [3] [0, 1] [] [0, 1] [] 3 ![1, 1, 2]
  gather_S4x32768x32_S4x32768x17x2_S4x32768x17x32_3_01_n_n_01_3_1132_wf : GatherDims.WF S4x32768x32 S4x32768x17x2 S4x32768x17x32 [3] [0, 1] [] [0, 1] [] 3 ![1, 1, 32]
  dot_S128x53_S53x32_S128x32_1_0_0_1_n_n_wf : DotDims.WF S128x53 S53x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x17x2.size a ≤ S4x32768x17x2.size a
  hwx0_0 : ∀ i : grid0.Coords, EltTy.bits .f32 = 32 ∨ (Rect.block (s := S4x32768x17x2) S1x128x17x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x17x32.size a ≤ S4x32768x17x32.size a
  hwx0_1 : ∀ i : grid0.Coords, EltTy.bits .f32 = 32 ∨ (Rect.block (s := S4x32768x17x32) S1x128x17x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S53x32.size a ≤ S53x32.size a
  hwx0_2 : ∀ i : grid0.Coords, EltTy.bits .f32 = 32 ∨ (Rect.block (s := S53x32) S53x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x17x64.size a ≤ S4x32768x17x64.size a
  hwx0_4 : ∀ i : grid0.Coords, EltTy.bits .f32 = 32 ∨ (Rect.block (s := S4x32768x17x64) S1x128x17x64.size (cc0_transform_4 i) (hinb0_4 i)).WholeWords (EltTy.packing .f32)

variable [Facts₀]

def gather_S4x32768x2_S4x32768x17x2_S4x32768x17x2_3_01_n_n_01_3_112 : GatherDims S4x32768x2 S4x32768x17x2 S4x32768x17x2 where
  offsetDims := [3]
  collapsedSliceDims := [0, 1]
  operandBatchingDims := []
  startIndicesBatchingDims := []
  startIndexMap := [0, 1]
  indexVectorDim := 3
  sliceSizes := ![1, 1, 2]
  wf := gather_S4x32768x2_S4x32768x17x2_S4x32768x17x2_3_01_n_n_01_3_112_wf
def gather_S4x32768x32_S4x32768x17x2_S4x32768x17x32_3_01_n_n_01_3_1132 : GatherDims S4x32768x32 S4x32768x17x2 S4x32768x17x32 where
  offsetDims := [3]
  collapsedSliceDims := [0, 1]
  operandBatchingDims := []
  startIndicesBatchingDims := []
  startIndexMap := [0, 1]
  indexVectorDim := 3
  sliceSizes := ![1, 1, 32]
  wf := gather_S4x32768x32_S4x32768x17x2_S4x32768x17x32_3_01_n_n_01_3_1132_wf
def dot_S128x53_S53x32_S128x32_1_0_0_1_n_n : DotDims S128x53 S53x32 S128x32 where
  lhsContracting := [1]
  rhsContracting := [0]
  lhsNonContracting := [0]
  rhsNonContracting := [1]
  lhsBatch := []
  rhsBatch := []
  wf := dot_S128x53_S53x32_S128x32_1_0_0_1_n_n_wf

abbrev win0_0 : Pipeline.Window sig grid0 :=
  Pipeline.Window.ofSpec (Memref.whole main_v16) S1x128x17x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x128x17x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S53x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128x17x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x32768x2 : Shape := ⟨3, ![4, 32768, 2]⟩
abbrev S4x32768x32 : Shape := ⟨3, ![4, 32768, 32]⟩
abbrev S53x32 : Shape := ⟨2, ![53, 32]⟩
abbrev S32 : Shape := ⟨1, ![32]⟩
abbrev S4x32768x17 : Shape := ⟨3, ![4, 32768, 17]⟩
abbrev S4 : Shape := ⟨1, ![4]⟩
abbrev S4x1x1 : Shape := ⟨3, ![4, 1, 1]⟩
abbrev S_ : Shape := ⟨0, ![]⟩
abbrev S4x32768x17x1 : Shape := ⟨4, ![4, 32768, 17, 1]⟩
abbrev S4x32768x17x2 : Shape := ⟨4, ![4, 32768, 17, 2]⟩
abbrev S4x32768x17x32 : Shape := ⟨4, ![4, 32768, 17, 32]⟩
abbrev S4x32768x17x1x2 : Shape := ⟨5, ![4, 32768, 17, 1, 2]⟩
abbrev S4x32768x1x17x2 : Shape := ⟨5, ![4, 32768, 1, 17, 2]⟩
abbrev S4x32768x17x17x2 : Shape := ⟨5, ![4, 32768, 17, 17, 2]⟩
abbrev S4x32768x1x17x1 : Shape := ⟨5, ![4, 32768, 1, 17, 1]⟩
abbrev S4x32768x17x17x1 : Shape := ⟨5, ![4, 32768, 17, 17, 1]⟩
abbrev S4x32768x17x17x3 : Shape := ⟨5, ![4, 32768, 17, 17, 3]⟩
abbrev S4x32768x17x51 : Shape := ⟨4, ![4, 32768, 17, 51]⟩
abbrev S4x32768x17x53 : Shape := ⟨4, ![4, 32768, 17, 53]⟩
abbrev S1x1x1x32 : Shape := ⟨4, ![1, 1, 1, 32]⟩
abbrev S4x32768x17x64 : Shape := ⟨4, ![4, 32768, 17, 64]⟩

abbrev nBuf : Space → Nat
  | .hbm => 71
  | .vmem => 0
  | .smem => 0
  | _ => 0

abbrev bufTy : (tb : Table) → Fin (tcTables nBuf tb) → BufTy
  | .hbm, ⟨0, _⟩ => ⟨S4x32768x2, .f32⟩
  | .hbm, ⟨1, _⟩ => ⟨S4x32768x32, .f32⟩
  | .hbm, ⟨2, _⟩ => ⟨S53x32, .f32⟩
  | .hbm, ⟨3, _⟩ => ⟨S32, .f32⟩
  | .hbm, ⟨4, _⟩ => ⟨S4x32768x17, .i32⟩
  | .hbm, ⟨5, _⟩ => ⟨S4, .i32⟩
  | .hbm, ⟨6, _⟩ => ⟨S4x1x1, .i32⟩
  | .hbm, ⟨7, _⟩ => ⟨S_, .i32⟩
  | .hbm, ⟨8, _⟩ => ⟨S4x1x1, .i32⟩
  | .hbm, ⟨9, _⟩ => ⟨S4x1x1, .i1⟩
  | .hbm, ⟨10, _⟩ => ⟨S_, .i32⟩
  | .hbm, ⟨11, _⟩ => ⟨S4x1x1, .i32⟩
  | .hbm, ⟨12, _⟩ => ⟨S4x1x1, .i32⟩
  | .hbm, ⟨13, _⟩ => ⟨S4x1x1, .i32⟩
  | .hbm, ⟨14, _⟩ => ⟨S_, .i32⟩
  | .hbm, ⟨15, _⟩ => ⟨S4x32768x17, .i32⟩
  | .hbm, ⟨16, _⟩ => ⟨S4x32768x17, .i1⟩
  | .hbm, ⟨17, _⟩ => ⟨S_, .i32⟩
  | .hbm, ⟨18, _⟩ => ⟨S4x32768x17, .i32⟩
  | .hbm, ⟨19, _⟩ => ⟨S4x32768x17, .i32⟩
  | .hbm, ⟨20, _⟩ => ⟨S4x32768x17, .i32⟩
  | .hbm, ⟨21, _⟩ => ⟨S4x32768x17, .i32⟩
  | .hbm, ⟨22, _⟩ => ⟨S4x32768x17x1, .i32⟩
  | .hbm, ⟨23, _⟩ => ⟨S4x32768x17x1, .i32⟩
  | .hbm, ⟨24, _⟩ => ⟨S4x32768x17x2, .i32⟩
  | .hbm, ⟨25, _⟩ => ⟨S4x32768x17x2, .f32⟩
  | .hbm, ⟨26, _⟩ => ⟨S4, .i32⟩
  | .hbm, ⟨27, _⟩ => ⟨S4x1x1, .i32⟩
  | .hbm, ⟨28, _⟩ => ⟨S_, .i32⟩
  | .hbm, ⟨29, _⟩ => ⟨S4x1x1, .i32⟩
  | .hbm, ⟨30, _⟩ => ⟨S4x1x1, .i1⟩
  | .hbm, ⟨31, _⟩ => ⟨S_, .i32⟩
  | .hbm, ⟨32, _⟩ => ⟨S4x1x1, .i32⟩
  | .hbm, ⟨33, _⟩ => ⟨S4x1x1, .i32⟩
  | .hbm, ⟨34, _⟩ => ⟨S4x1x1, .i32⟩
  | .hbm, ⟨35, _⟩ => ⟨S_, .i32⟩
  | .hbm, ⟨36, _⟩ => ⟨S4x32768x17, .i32⟩
  | .hbm, ⟨37, _⟩ => ⟨S4x32768x17, .i1⟩
  | .hbm, ⟨38, _⟩ => ⟨S_, .i32⟩
  | .hbm, ⟨39, _⟩ => ⟨S4x32768x17, .i32⟩
  | .hbm, ⟨40, _⟩ => ⟨S4x32768x17, .i32⟩
  | .hbm, ⟨41, _⟩ => ⟨S4x32768x17, .i32⟩
  | .hbm, ⟨42, _⟩ => ⟨S4x32768x17, .i32⟩
  | .hbm, ⟨43, _⟩ => ⟨S4x32768x17x1, .i32⟩
  | .hbm, ⟨44, _⟩ => ⟨S4x32768x17x1, .i32⟩
  | .hbm, ⟨45, _⟩ => ⟨S4x32768x17x2, .i32⟩
  | .hbm, ⟨46, _⟩ => ⟨S4x32768x17x32, .f32⟩
  | .hbm, ⟨47, _⟩ => ⟨S4x32768x17x1x2, .f32⟩
  | .hbm, ⟨48, _⟩ => ⟨S4x32768x1x17x2, .f32⟩
  | .hbm, ⟨49, _⟩ => ⟨S4x32768x17x17x2, .f32⟩
  | .hbm, ⟨50, _⟩ => ⟨S4x32768x17x17x2, .f32⟩
  | .hbm, ⟨51, _⟩ => ⟨S4x32768x17x17x2, .f32⟩
  | .hbm, ⟨52, _⟩ => ⟨S4x32768x17x2, .f32⟩
  | .hbm, ⟨53, _⟩ => ⟨S_, .f32⟩
  | .hbm, ⟨54, _⟩ => ⟨S4x32768x17, .f32⟩
  | .hbm, ⟨55, _⟩ => ⟨S4x32768x17x1, .f32⟩
  | .hbm, ⟨56, _⟩ => ⟨S4x32768x17x1, .f32⟩
  | .hbm, ⟨57, _⟩ => ⟨S4x32768x1x17x1, .f32⟩
  | .hbm, ⟨58, _⟩ => ⟨S4x32768x17x17x1, .f32⟩
  | .hbm, ⟨59, _⟩ => ⟨S4x32768x17x17x3, .f32⟩
  | .hbm, ⟨60, _⟩ => ⟨S4x32768x17x17x3, .f32⟩
  | .hbm, ⟨61, _⟩ => ⟨S4x32768x17x51, .f32⟩
  | .hbm, ⟨62, _⟩ => ⟨S4x32768x17x53, .f32⟩
  | .hbm, ⟨63, _⟩ => ⟨S4x32768x17x32, .f32⟩
  | .hbm, ⟨64, _⟩ => ⟨S1x1x1x32, .f32⟩
  | .hbm, ⟨65, _⟩ => ⟨S4x32768x17x32, .f32⟩
  | .hbm, ⟨66, _⟩ => ⟨S4x32768x17x32, .f32⟩
  | .hbm, ⟨67, _⟩ => ⟨S_, .f32⟩
  | .hbm, ⟨68, _⟩ => ⟨S4x32768x17x32, .f32⟩
  | .hbm, ⟨69, _⟩ => ⟨S4x32768x17x32, .f32⟩
  | .hbm, ⟨70, _⟩ => ⟨S4x32768x17x64, .f32⟩
  | _, _ => ⟨S4x32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call1_cst : Ref sig .tc := ⟨.hbm, 67, rfl⟩
abbrev main_call1_v0 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x32768x17 : S_.BroadcastsInDim S4x32768x17 (![] : Fin 0 → Fin S4x32768x17.rank)
  bcast_S4x1x1_S4x32768x17_0_1_2 : S4x1x1.BroadcastsInDim S4x32768x17 (![0, 1, 2] : Fin 3 → Fin S4x32768x17.rank)
  bcast_S4x32768x17_S4x32768x17x1_0_1_2 : S4x32768x17.BroadcastsInDim S4x32768x17x1 (![0, 1, 2] : Fin 3 → Fin S4x32768x17x1.rank)
  concatenates_S4x32768x17x1_S4x32768x17x1_S4x32768x17x2_d3 : Shape.Concatenates [S4x32768x17x1, S4x32768x17x1] S4x32768x17x2 3
  bcast_S4x32768x17x2_S4x32768x17x1x2_0_1_2_4 : S4x32768x17x2.BroadcastsInDim S4x32768x17x1x2 (![0, 1, 2, 4] : Fin 4 → Fin S4x32768x17x1x2.rank)
  bcast_S4x32768x17x2_S4x32768x1x17x2_0_1_3_4 : S4x32768x17x2.BroadcastsInDim S4x32768x1x17x2 (![0, 1, 3, 4] : Fin 4 → Fin S4x32768x1x17x2.rank)
  bcast_S4x32768x17x1x2_S4x32768x17x17x2_0_1_2_3_4 : S4x32768x17x1x2.BroadcastsInDim S4x32768x17x17x2 (![0, 1, 2, 3, 4] : Fin 5 → Fin S4x32768x17x17x2.rank)
  bcast_S4x32768x1x17x2_S4x32768x17x17x2_0_1_2_3_4 : S4x32768x1x17x2.BroadcastsInDim S4x32768x17x17x2 (![0, 1, 2, 3, 4] : Fin 5 → Fin S4x32768x17x17x2.rank)
  reducesTo_S4x32768x17x2_S4x32768x17_d3 : S4x32768x17x2.ReducesTo [3] S4x32768x17
  h_S_ : 0 < S_.numel
  bcast_S4x32768x17x1_S4x32768x1x17x1_0_1_3_4 : S4x32768x17x1.BroadcastsInDim S4x32768x1x17x1 (![0, 1, 3, 4] : Fin 4 → Fin S4x32768x1x17x1.rank)
  bcast_S4x32768x1x17x1_S4x32768x17x17x1_0_1_2_3_4 : S4x32768x1x17x1.BroadcastsInDim S4x32768x17x17x1 (![0, 1, 2, 3, 4] : Fin 5 → Fin S4x32768x17x17x1.rank)
  concatenates_S4x32768x17x17x2_S4x32768x17x17x1_S4x32768x17x17x3_d4 : Shape.Concatenates [S4x32768x17x17x2, S4x32768x17x17x1] S4x32768x17x17x3 4
  transposes_S4x32768x17x17x3_S4x32768x17x17x3_0_1_3_2_4 : S4x32768x17x17x3.Transposes [0, 1, 3, 2, 4] S4x32768x17x17x3
  shapeCasts_S4x32768x17x17x3_S4x32768x17x51 : S4x32768x17x17x3.ShapeCasts S4x32768x17x51
  concatenates_S4x32768x17x2_S4x32768x17x51_S4x32768x17x53_d3 : Shape.Concatenates [S4x32768x17x2, S4x32768x17x51] S4x32768x17x53 3
  bcast_S32_S1x1x1x32_3 : S32.BroadcastsInDim S1x1x1x32 (![3] : Fin 1 → Fin S1x1x1x32.rank)
  bcast_S1x1x1x32_S4x32768x17x32_0_1_2_3 : S1x1x1x32.BroadcastsInDim S4x32768x17x32 (![0, 1, 2, 3] : Fin 4 → Fin S4x32768x17x32.rank)
  bcast_S_S4x32768x17x32 : S_.BroadcastsInDim S4x32768x17x32 (![] : Fin 0 → Fin S4x32768x17x32.rank)
  concatenates_S4x32768x17x32_S4x32768x17x32_S4x32768x17x64_d3 : Shape.Concatenates [S4x32768x17x32, S4x32768x17x32] S4x32768x17x64 3
  gather_S4x32768x2_S4x32768x17x2_S4x32768x17x2_3_01_n_n_01_3_112_wf : GatherDims.WF S4x32768x2 S4x32768x17x2 S4x32768x17x2 [3] [0, 1] [] [0, 1] [] 3 ![1, 1, 2]
  gather_S4x32768x32_S4x32768x17x2_S4x32768x17x32_3_01_n_n_01_3_1132_wf : GatherDims.WF S4x32768x32 S4x32768x17x2 S4x32768x17x32 [3] [0, 1] [] [0, 1] [] 3 ![1, 1, 32]
  dot_S4x32768x17x53_S53x32_S4x32768x17x32_3_0_012_1_n_n_wf : DotDims.WF S4x32768x17x53 S53x32 S4x32768x17x32 [3] [0] [0, 1, 2] [1] [] []

variable [Facts₀]

def gather_S4x32768x2_S4x32768x17x2_S4x32768x17x2_3_01_n_n_01_3_112 : GatherDims S4x32768x2 S4x32768x17x2 S4x32768x17x2 where
  offsetDims := [3]
  collapsedSliceDims := [0, 1]
  operandBatchingDims := []
  startIndicesBatchingDims := []
  startIndexMap := [0, 1]
  indexVectorDim := 3
  sliceSizes := ![1, 1, 2]
  wf := gather_S4x32768x2_S4x32768x17x2_S4x32768x17x2_3_01_n_n_01_3_112_wf
def gather_S4x32768x32_S4x32768x17x2_S4x32768x17x32_3_01_n_n_01_3_1132 : GatherDims S4x32768x32 S4x32768x17x2 S4x32768x17x32 where
  offsetDims := [3]
  collapsedSliceDims := [0, 1]
  operandBatchingDims := []
  startIndicesBatchingDims := []
  startIndexMap := [0, 1]
  indexVectorDim := 3
  sliceSizes := ![1, 1, 32]
  wf := gather_S4x32768x32_S4x32768x17x2_S4x32768x17x32_3_01_n_n_01_3_1132_wf
def dot_S4x32768x17x53_S53x32_S4x32768x17x32_3_0_012_1_n_n : DotDims S4x32768x17x53 S53x32 S4x32768x17x32 where
  lhsContracting := [3]
  rhsContracting := [0]
  lhsNonContracting := [0, 1, 2]
  rhsNonContracting := [1]
  lhsBatch := []
  rhsBatch := []
  wf := dot_S4x32768x17x53_S53x32_S4x32768x17x32_3_0_012_1_n_n_wf

class Facts : Prop extends Facts₀ where

variable [Facts]
-- ==== Proof.Spec.lean ====
/-
  Local spatial encoding of a point's 17 gathered neighbours, then one dense layer: the function both programs compute,
  written once over the extended reals.

  For one query point let `p q e` be coordinate `e` (of 2) of its neighbour `q` (of 17) and `f q u` feature `u` (of 32)
  of that neighbour. The encoding of neighbour `q` is a vector of 53 numbers: the neighbour's own two coordinates, then for
  every neighbour `j` in turn the triple (p j 0 - p q 0, p j 1 - p q 1, |p q|), with |p q| the Euclidean length of `p q`.
  The output row of neighbour `q` has 64 entries: entries 0..31 are max (encoding · W + bias, 0), entries 32..63 are the
  neighbour's features unchanged.
-/
import Idealize.ShloMosaic.PureOps.Ideal
import Idealize.ShloMosaic.PureOps.Ideal.Laws
import Idealize.ShloMosaic.Lib.ValueIdx

noncomputable section

namespace LocSE

open Idealize.ShloMosaic Idealize.ShloMosaic.ValueIdx

/-- The zero both programs compare against and start sums from, kept as the word they print. -/
abbrev zero : EReal := Ideal.ofBits .f32 0x00000000#32

/-- The Euclidean length of neighbour `q`: the square root of the sum of its squared coordinates. -/
def len (p : Fin 17 → Fin 2 → EReal) (q : Fin 17) : EReal :=
  Ideal.sqrt (∑ e : Fin 2, p q e * p q e)

/-- Entry `k` (of 53) of the encoding of neighbour `q`: entries 0 and 1 are its coordinates; entry `2 + 3 j + e` is
    `p j e - p q e` for `e < 2` and the length of `p q` for `e = 2`. -/
def enc (p : Fin 17 → Fin 2 → EReal) (q : Fin 17) (k : Fin 53) : EReal :=
  if h : k.val < 2 then p q ⟨k.val, h⟩
  else if h2 : (k.val - 2) % 3 < 2 then
    p ⟨(k.val - 2) / 3, by have := k.isLt; omega⟩ ⟨(k.val - 2) % 3, h2⟩ - p q ⟨(k.val - 2) % 3, h2⟩
  else len p q

/-- Entry `u` (of 64) of the output row of neighbour `q`: the dense layer's rectified unit `u` for `u < 32`, the
    neighbour's feature `u - 32` otherwise. -/
def row (p : Fin 17 → Fin 2 → EReal) (f : Fin 17 → Fin 32 → EReal)
    (W : (⟨2, ![53, 32]⟩ : Shape).Idx → EReal) (bv : (⟨1, ![32]⟩ : Shape).Idx → EReal) (q : Fin 17) (u : Fin 64) : EReal :=
  if h : u.val < 32 then max ((∑ k : Fin 53, enc p q k * W (ix2 k ⟨u.val, h⟩)) + bv (ix1 ⟨u.val, h⟩)) zero
  else f q ⟨u.val - 32, by have := u.isLt; omega⟩

/-- The whole result array from the gathered coordinates `P`, the gathered features `Fe`, the weights and the bias:
    entry (b, n, q, u) is the output row of neighbour `q` of query point (b, n). -/
def out (P : (⟨4, ![4, 32768, 17, 2]⟩ : Shape).Idx → EReal) (Fe : (⟨4, ![4, 32768, 17, 32]⟩ : Shape).Idx → EReal)
    (W : (⟨2, ![53, 32]⟩ : Shape).Idx → EReal) (bv : (⟨1, ![32]⟩ : Shape).Idx → EReal) :
    (⟨4, ![4, 32768, 17, 64]⟩ : Shape).Idx → EReal :=
  fun i => row (fun q e => P (ix4 (i 0) (i 1) q e)) (fun q u => Fe (ix4 (i 0) (i 1) q u)) W bv (i 2) (i 3)

/-- The same over one block of 128 query points: what one grid point of the kernel leaves. -/
def blk (x0 : (⟨4, ![1, 128, 17, 2]⟩ : Shape).Idx → EReal) (x1 : (⟨4, ![1, 128, 17, 32]⟩ : Shape).Idx → EReal)
    (W : (⟨2, ![53, 32]⟩ : Shape).Idx → EReal) (bv : (⟨1, ![32]⟩ : Shape).Idx → EReal) :
    (⟨4, ![1, 128, 17, 64]⟩ : Shape).Idx → EReal :=
  fun y => row (fun q e => x0 (ix4 (0 : Fin 1) (y 1) q e)) (fun q u => x1 (ix4 (0 : Fin 1) (y 1) q u)) W bv (y 2) (y 3)

/-- The 53-entry encodings of one block, as the kernel keeps them in its scratch buffer. -/
def encBlk (x0 : (⟨4, ![1, 128, 17, 2]⟩ : Shape).Idx → EReal) : (⟨3, ![128, 17, 53]⟩ : Shape).Idx → EReal :=
  fun y => enc (fun q e => x0 (ix4 (0 : Fin 1) (y 0) q e)) (y 1) (y 2)

/-- Entries 0 and 1 of an encoding are the neighbour's own coordinates. -/
theorem enc_head (p : Fin 17 → Fin 2 → EReal) (q : Fin 17) (k : Fin 53) (e : Fin 2) (hk : k.val = e.val) :
    enc p q k = p q e := by
  have he := e.isLt
  unfold enc
  rw [dif_pos (by omega)]
  exact congrArg (p q) (Fin.ext hk)

/-- Entry `2 + 3 j + e` of an encoding: a coordinate difference against neighbour `j` for `e < 2`, the length for `e = 2`. -/
theorem enc_triple (p : Fin 17 → Fin 2 → EReal) (q j : Fin 17) (e : Fin 3) (k : Fin 53) (hk : k.val = 2 + 3 * j.val + e.val) :
    enc p q k = if h : e.val < 2 then p j ⟨e.val, h⟩ - p q ⟨e.val, h⟩ else len p q := by
  have he := e.isLt
  unfold enc
  rw [dif_neg (by omega)]
  by_cases h : e.val < 2
  · have h2 : (k.val - 2) % 3 < 2 := by omega
    rw [dif_pos h2, dif_pos h]
    have e1 : (⟨(k.val - 2) / 3, by have := k.isLt; omega⟩ : Fin 17) = j := Fin.ext (by show (k.val - 2) / 3 = j.val; omega)
    have e2 : (⟨(k.val - 2) % 3, h2⟩ : Fin 2) = ⟨e.val, h⟩ := Fin.ext (by show (k.val - 2) % 3 = e.val; omega)
    rw [e1, e2]
  · rw [dif_neg (by omega), dif_neg h]

/-- The first 32 entries of an output row: the rectified dense layer. -/
theorem row_dense (p : Fin 17 → Fin 2 → EReal) (f : Fin 17 → Fin 32 → EReal)
    (W : (⟨2, ![53, 32]⟩ : Shape).Idx → EReal) (bv : (⟨1, ![32]⟩ : Shape).Idx → EReal) (q : Fin 17) (u : Fin 64) (u' : Fin 32)
    (h : u.val = u'.val) :
    row p f W bv q u = max ((∑ k : Fin 53, enc p q k * W (ix2 k u')) + bv (ix1 u')) zero := by
  have hu := u'.isLt
  unfold row
  rw [dif_pos (by omega)]
  have e1 : (⟨u.val, by omega⟩ : Fin 32) = u' := Fin.ext h
  rw [e1]

/-- The last 32 entries of an output row: the neighbour's features. -/
theorem row_feat (p : Fin 17 → Fin 2 → EReal) (f : Fin 17 → Fin 32 → EReal)
    (W : (⟨2, ![53, 32]⟩ : Shape).Idx → EReal) (bv : (⟨1, ![32]⟩ : Shape).Idx → EReal) (q : Fin 17) (u : Fin 64) (u' : Fin 32)
    (h : u.val = 32 + u'.val) : row p f W bv q u = f q u' := by
  unfold row
  rw [dif_neg (by omega)]
  exact congrArg (f q) (Fin.ext (by show u.val - 32 = u'.val; omega))

/-- A block's output rows are the whole array's output rows at the block's place: when the block's coordinates and
    features are the array's at the same query point, and the weights and bias are the same. -/
theorem blk_eq_out (x0 : (⟨4, ![1, 128, 17, 2]⟩ : Shape).Idx → EReal) (x1 : (⟨4, ![1, 128, 17, 32]⟩ : Shape).Idx → EReal)
    (W : (⟨2, ![53, 32]⟩ : Shape).Idx → EReal) (bv : (⟨1, ![32]⟩ : Shape).Idx → EReal)
    (P : (⟨4, ![4, 32768, 17, 2]⟩ : Shape).Idx → EReal) (Fe : (⟨4, ![4, 32768, 17, 32]⟩ : Shape).Idx → EReal)
    (W' : (⟨2, ![53, 32]⟩ : Shape).Idx → EReal) (bv' : (⟨1, ![32]⟩ : Shape).Idx → EReal)
    (y : (⟨4, ![1, 128, 17, 64]⟩ : Shape).Idx) (i : (⟨4, ![4, 32768, 17, 64]⟩ : Shape).Idx)
    (hP : ∀ (q : Fin 17) (e : Fin 2), x0 (ix4 (0 : Fin 1) (y 1) q e) = P (ix4 (i 0) (i 1) q e))
    (hF : ∀ (q : Fin 17) (u : Fin 32), x1 (ix4 (0 : Fin 1) (y 1) q u) = Fe (ix4 (i 0) (i 1) q u))
    (hW : W = W') (hb : bv = bv') (h2 : (y 2).val = (i 2).val) (h3 : (y 3).val = (i 3).val) :
    blk x0 x1 W bv y = out P Fe W' bv' i := by
  subst hW hb
  unfold blk out
  have e2 : y 2 = i 2 := Fin.ext h2
  have e3 : y 3 = i 3 := Fin.ext h3
  have eP : (fun q e => x0 (ix4 (0 : Fin 1) (y 1) q e)) = fun q e => P (ix4 (i 0) (i 1) q e) :=
    funext fun q => funext fun e => hP q e
  have eF : (fun q u => x1 (ix4 (0 : Fin 1) (y 1) q u)) = fun q u => Fe (ix4 (i 0) (i 1) q u) :=
    funext fun q => funext fun u => hF q u
  rw [eP, eF, e2, e3]

end LocSE

end
-- ==== Proof.Layout.lean ====
/-
  Re-layouts of small arrays read at an index, for the shapes this kernel's body passes through: a trailing or middle
  unit axis added or dropped by a shape cast, one slot of an axis broadcast over the whole axis, and a last-axis join of
  two arrays. Each lemma says which entry of the operand an entry of the result is; the proofs compare row-major positions.
-/
import Idealize.ShloMosaic.Lib.Pipeline.Value
import Idealize.ShloMosaic.Lib.ValueIdx
import Idealize.ShloMosaic.Lib.ValueLayout

namespace LocSE.Layout

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[1, a, 1, b]` reads, at `(u, i, v, j)`, the operand at `(i, j)`. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (v : Fin 1) (j : Fin b) :
    shapeCast ⟨4, ![1, a, 1, b]⟩ x h (ix4 u i v j) = x (ix2 i j) :=
  shapeCast_apply x h _ _ (by
    have hu : u.val = 0 := by omega
    have hv : v.val = 0 := by omega
    rw [Shape.rowMajor_val_four, Shape.rowMajor_val_two]
    show i.val * b + j.val = ((u.val * a + i.val) * 1 + v.val) * b + j.val
    rw [hu, hv, Nat.zero_mul, Nat.zero_add, Nat.mul_one, Nat.add_zero])

/-- An `[a, 1, c]` array broadcast to `[a, b, c]` reads, at `(i, j, k)`, the operand's one slot at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The join of an `[a, b, c₁]` and an `[a, b, c₂]` array along the last axis reads, below `c₁`, the first array. -/
theorem concat3_last_left {a b c₁ c₂ c : ℕ} (x₁ : (⟨3, ![a, b, c₁]⟩ : Shape).Idx → α) (x₂ : (⟨3, ![a, b, c₂]⟩ : Shape).Idx → α)
    (h : Shape.Concatenates [(⟨3, ![a, b, c₁]⟩ : Shape), ⟨3, ![a, b, c₂]⟩] ⟨3, ![a, b, c]⟩ 2)
    (i : Fin a) (j : Fin b) (k : Fin c) (k' : Fin c₁) (hk : k'.val = k.val) :
    concatenate ⟨3, ![a, b, c]⟩ 2 [⟨⟨3, ![a, b, c₁]⟩, x₁⟩, ⟨⟨3, ![a, b, c₂]⟩, x₂⟩] h (ix3 i j k) = x₁ (ix3 i j k') :=
  concatenate_pair_apply_left 2 x₁ x₂ h (ix3 i j k) rfl (ix3 i j k') (fun ax => by
    match ax with
    | ⟨0, _⟩ => rfl
    | ⟨1, _⟩ => rfl
    | ⟨2, _⟩ => exact hk)

/-- … and from `c₁` on the second array, `c₁` places back. -/
theorem concat3_last_right {a b c₁ c₂ c : ℕ} (x₁ : (⟨3, ![a, b, c₁]⟩ : Shape).Idx → α) (x₂ : (⟨3, ![a, b, c₂]⟩ : Shape).Idx → α)
    (h : Shape.Concatenates [(⟨3, ![a, b, c₁]⟩ : Shape), ⟨3, ![a, b, c₂]⟩] ⟨3, ![a, b, c]⟩ 2)
    (i : Fin a) (j : Fin b) (k : Fin c) (k' : Fin c₂) (hk : k'.val + c₁ = k.val) :
    concatenate ⟨3, ![a, b, c]⟩ 2 [⟨⟨3, ![a, b, c₁]⟩, x₁⟩, ⟨⟨3, ![a, b, c₂]⟩, x₂⟩] h (ix3 i j k) = x₂ (ix3 i j k') :=
  concatenate_pair_apply_right 2 x₁ x₂ h (ix3 i j k) rfl rfl (ix3 i j k') (fun ax hne => by
    match ax with
    | ⟨0, _⟩ => rfl
    | ⟨1, _⟩ => rfl
    | ⟨2, _⟩ => exact absurd rfl hne) hk

/-- The join of two `[a, b, c, ·]` arrays along the last axis: below the first extent, the first array. -/
theorem concat4_last_left {a b c d₁ d₂ d : ℕ} (x₁ : (⟨4, ![a, b, c, d₁]⟩ : Shape).Idx → α) (x₂ : (⟨4, ![a, b, c, d₂]⟩ : Shape).Idx → α)
    (h : Shape.Concatenates [(⟨4, ![a, b, c, d₁]⟩ : Shape), ⟨4, ![a, b, c, d₂]⟩] ⟨4, ![a, b, c, d]⟩ 3)
    (i : Fin a) (j : Fin b) (k : Fin c) (l : Fin d) (l' : Fin d₁) (hl : l'.val = l.val) :
    concatenate ⟨4, ![a, b, c, d]⟩ 3 [⟨⟨4, ![a, b, c, d₁]⟩, x₁⟩, ⟨⟨4, ![a, b, c, d₂]⟩, x₂⟩] h (ix4 i j k l) = x₁ (ix4 i j k l') :=
  concatenate_pair_apply_left 3 x₁ x₂ h (ix4 i j k l) rfl (ix4 i j k l') (fun ax => by
    match ax with
    | ⟨0, _⟩ => rfl
    | ⟨1, _⟩ => rfl
    | ⟨2, _⟩ => rfl
    | ⟨3, _⟩ => exact hl)

/-- … and from the first extent on, the second array. -/
theorem concat4_last_right {a b c d₁ d₂ d : ℕ} (x₁ : (⟨4, ![a, b, c, d₁]⟩ : Shape).Idx → α) (x₂ : (⟨4, ![a, b, c, d₂]⟩ : Shape).Idx → α)
    (h : Shape.Concatenates [(⟨4, ![a, b, c, d₁]⟩ : Shape), ⟨4, ![a, b, c, d₂]⟩] ⟨4, ![a, b, c, d]⟩ 3)
    (i : Fin a) (j : Fin b) (k : Fin c) (l : Fin d) (l' : Fin d₂) (hl : l'.val + d₁ = l.val) :
    concatenate ⟨4, ![a, b, c, d]⟩ 3 [⟨⟨4, ![a, b, c, d₁]⟩, x₁⟩, ⟨⟨4, ![a, b, c, d₂]⟩, x₂⟩] h (ix4 i j k l) = x₂ (ix4 i j k l') :=
  concatenate_pair_apply_right 3 x₁ x₂ h (ix4 i j k l) rfl rfl (ix4 i j k l') (fun ax hne => by
    match ax with
    | ⟨0, _⟩ => rfl
    | ⟨1, _⟩ => rfl
    | ⟨2, _⟩ => rfl
    | ⟨3, _⟩ => exact absurd rfl hne) hl

/-- The join of two rank-5 arrays along the last axis: below the first extent, the first array. -/
theorem concat5_last_left {a b c d e₁ e₂ e : ℕ} (x₁ : (⟨5, ![a, b, c, d, e₁]⟩ : Shape).Idx → α) (x₂ : (⟨5, ![a, b, c, d, e₂]⟩ : Shape).Idx → α)
    (h : Shape.Concatenates [(⟨5, ![a, b, c, d, e₁]⟩ : Shape), ⟨5, ![a, b, c, d, e₂]⟩] ⟨5, ![a, b, c, d, e]⟩ 4)
    (i : Fin a) (j : Fin b) (k : Fin c) (l : Fin d) (n : Fin e) (n' : Fin e₁) (hn : n'.val = n.val) :
    concatenate ⟨5, ![a, b, c, d, e]⟩ 4 [⟨⟨5, ![a, b, c, d, e₁]⟩, x₁⟩, ⟨⟨5, ![a, b, c, d, e₂]⟩, x₂⟩] h (ix5 i j k l n) = x₁ (ix5 i j k l n') :=
  concatenate_pair_apply_left 4 x₁ x₂ h (ix5 i j k l n) rfl (ix5 i j k l n') (fun ax => by
    match ax with
    | ⟨0, _⟩ => rfl
    | ⟨1, _⟩ => rfl
    | ⟨2, _⟩ => rfl
    | ⟨3, _⟩ => rfl
    | ⟨4, _⟩ => exact hn)

/-- … and from the first extent on, the second array. -/
theorem concat5_last_right {a b c d e₁ e₂ e : ℕ} (x₁ : (⟨5, ![a, b, c, d, e₁]⟩ : Shape).Idx → α) (x₂ : (⟨5, ![a, b, c, d, e₂]⟩ : Shape).Idx → α)
    (h : Shape.Concatenates [(⟨5, ![a, b, c, d, e₁]⟩ : Shape), ⟨5, ![a, b, c, d, e₂]⟩] ⟨5, ![a, b, c, d, e]⟩ 4)
    (i : Fin a) (j : Fin b) (k : Fin c) (l : Fin d) (n : Fin e) (n' : Fin e₂) (hn : n'.val + e₁ = n.val) :
    concatenate ⟨5, ![a, b, c, d, e]⟩ 4 [⟨⟨5, ![a, b, c, d, e₁]⟩, x₁⟩, ⟨⟨5, ![a, b, c, d, e₂]⟩, x₂⟩] h (ix5 i j k l n) = x₂ (ix5 i j k l n') :=
  concatenate_pair_apply_right 4 x₁ x₂ h (ix5 i j k l n) rfl rfl (ix5 i j k l n') (fun ax hne => by
    match ax with
    | ⟨0, _⟩ => rfl
    | ⟨1, _⟩ => rfl
    | ⟨2, _⟩ => rfl
    | ⟨3, _⟩ => rfl
    | ⟨4, _⟩ => exact absurd rfl hne) hn

end LocSE.Layout
-- ==== Proof.KernelOps.lean ====
/-
  The kernel body's vector operations read at one entry, over the extended reals: the lengths of the neighbours (a sum
  of two squares under a square root, kept as a trailing unit axis), one triple of the encoding (a neighbour's
  coordinates broadcast over all neighbours, the block subtracted, the lengths joined behind), the contraction of one
  neighbour slot's encoding with the weights plus bias under a maximum with zero, and one neighbour slot's features.
  Rounding to a shorter float format is the identity here, so the 16-bit copies are the arrays themselves.
-/
import proofs.«147481_j59691455480199_1_alg».proof.Proof.Gen.KernelIdeal
import proofs.«147481_j59691455480199_1_alg».proof.Proof.Spec
import proofs.«147481_j59691455480199_1_alg».proof.Proof.Layout
import Idealize.ShloMosaic.PureOps.Ideal.Laws

noncomputable section

namespace LocSE.Ops

open Cert.KernelIdeal Idealize.ShloMosaic Idealize.ShloMosaic.ValueIdx LocSE LocSE.Layout

/-- The matrix product's dimension record: rows by 53 times 53 by columns. -/
abbrev D := dot_S128x53_S53x32_S128x32_1_0_0_1_n_n

/-- A sum over the last axis of a [128, 17, 2] array, at (r, q): the two entries of that row. -/
theorem rowsum_apply (v2 : FVec Ideal S128x17x2 .f32) (hr : S128x17x2.Reduces [2] S128x17) (r : Fin 128) (q : Fin 17) :
    multiReduction .add [2] S128x17 v2 0x00000000#32 hr (.inl rfl) rfl (ix2 r q) = ∑ e : Fin 2, v2 (ix3 r q e) := by
  refine (Ideal.multiReduction_add_single v2 0x00000000#32 hr (.inl rfl) rfl (ix2 r q)).trans ?_
  refine Finset.sum_congr rfl fun e _ => congrArg v2 (funext fun a => Fin.ext ?_)
  match a with
  | ⟨0, _⟩ => rfl
  | ⟨1, _⟩ => rfl
  | ⟨2, _⟩ => rfl

/-- The lengths array at (r, q, 0): the Euclidean length of neighbour `q` of point `r`. -/
theorem lens_apply (v1 : FVec Ideal S128x17x2 .f32) (hr : S128x17x2.Reduces [2] S128x17) (hsc : S128x17.ShapeCasts S128x17x1)
    (r : Fin 128) (q : Fin 17) (u : Fin 1) :
    sqrt (shapeCast S128x17x1 (multiReduction .add [2] S128x17 (mulf v1 v1) 0x00000000#32 hr (.inl rfl) rfl) hsc) (ix3 r q u)
      = len (fun q e => v1 (ix3 r q e)) q := by
  show Ideal.sqrt (shapeCast S128x17x1 (multiReduction .add [2] S128x17 (mulf v1 v1) 0x00000000#32 hr (.inl rfl) rfl) hsc (ix3 r q u)) = _
  refine congrArg Ideal.sqrt ((shapeCast_ab_ab1_apply _ hsc r q u).trans ((rowsum_apply _ hr r q).trans ?_))
  rfl

/-- One triple of the encoding at (r, q, e): neighbour `j`'s coordinate less neighbour `q`'s for `e < 2`, else the
    lengths array's entry for (r, q). -/
theorem triple_apply (v1 : FVec Ideal S128x17x2 .f32) (v5 : FVec Ideal S128x17x1 .f32) (j : ℕ) (hj : j < 17)
    (hsl : S128x17x2.Slices ![0, j, 0] S128x1x2) (hb : S128x1x2.Broadcasts S128x17x2)
    (hc : Shape.Concatenates [S128x17x2, S128x17x1] S128x17x3 2) (r : Fin 128) (q : Fin 17) (e : Fin 3) :
    concatenate S128x17x3 2 [⟨S128x17x2, subf (broadcastTo S128x17x2 (extractStridedSlice S128x1x2 ![0, j, 0] v1 hsl) hb) v1⟩,
        ⟨S128x17x1, v5⟩] hc (ix3 r q e)
      = if h : e.val < 2 then v1 (ix3 r ⟨j, hj⟩ ⟨e.val, h⟩) - v1 (ix3 r q ⟨e.val, h⟩) else v5 (ix3 r q (0 : Fin 1)) := by
  by_cases h : e.val < 2
  · rw [dif_pos h]
    refine (concat3_last_left _ _ hc r q e ⟨e.val, h⟩ rfl).trans ?_
    show broadcastTo S128x17x2 (extractStridedSlice S128x1x2 ![0, j, 0] v1 hsl) hb (ix3 r q ⟨e.val, h⟩) - v1 (ix3 r q ⟨e.val, h⟩) = _
    refine congrArg (· - v1 (ix3 r q ⟨e.val, h⟩)) ?_
    exact (broadcastTo_a1c_abc_apply _ hb r q ⟨e.val, h⟩).trans
      (slice3_axis1_apply j v1 hsl r (0 : Fin 1) ⟨e.val, h⟩ ⟨j, hj⟩ rfl)
  · rw [dif_neg h]
    exact concat3_last_right _ _ hc r q e (0 : Fin 1) (by show 0 + 2 = e.val; have := e.isLt; omega)

/-- Row coordinate of the product's left operand index. -/
theorem lhs0 (i : S128x32.Idx) (k : D.contr.Idx) : (D.lhsIdx i k 0).val = (i 0).val := by
  unfold DotDims.lhsIdx
  rw [dif_neg (show ¬(0 : Fin S128x53.rank) ∈ D.lhsBatch by decide), dif_pos (show (0 : Fin S128x53.rank) ∈ D.lhsNonContracting by decide)]
  rfl

/-- Column coordinate of the product's right operand index. -/
theorem rhs1 (i : S128x32.Idx) (k : D.contr.Idx) : (D.rhsIdx i k 1).val = (i 1).val := by
  unfold DotDims.rhsIdx
  rw [dif_neg (show ¬(1 : Fin S53x32.rank) ∈ D.rhsBatch by decide), dif_pos (show (1 : Fin S53x32.rank) ∈ D.rhsNonContracting by decide)]
  rfl

/-- The matrix product into a zero accumulator at (r, u): the sum over the 53 shared positions. -/
theorem mm_apply (l : FVec Ideal S128x53 .bf16) (w : FVec Ideal S53x32 .bf16) (r : Fin 128) (u : Fin 32) :
    matmul D none l w (constant S128x32 .f32 0x00000000#32) (ix2 r u) = ∑ k : Fin 53, l (ix2 r k) * w (ix2 k u) := by
  simp only [matmul]
  rw [Ideal.matmul_constant_zero_apply, ← Equiv.sum_comp (ValueIdx.contrEquiv1 D 53 rfl rfl).symm]
  refine Finset.sum_congr rfl fun k _ => ?_
  have hk := ValueIdx.contrEquiv1_symm_val D 53 rfl rfl k
  have el : D.lhsIdx (ix2 r u) ((ValueIdx.contrEquiv1 D 53 rfl rfl).symm k) = ix2 r k := funext fun a => Fin.ext (by
    match a with
    | ⟨0, _⟩ => exact lhs0 _ _
    | ⟨1, _⟩ => exact (D.lhsIdx_val_of_single rfl _ _).trans hk)
  have er : D.rhsIdx (ix2 r u) ((ValueIdx.contrEquiv1 D 53 rfl rfl).symm k) = ix2 k u := funext fun a => Fin.ext (by
    match a with
    | ⟨0, _⟩ => exact (D.rhsIdx_val_of_single rfl _ _).trans hk
    | ⟨1, _⟩ => exact rhs1 _ _)
  rw [el, er]

/-- The dense layer for neighbour slot `q` at (r, u): the slot's 53 encoding entries against column `u` of the weights,
    the bias added, the maximum with zero taken. -/
theorem dense_apply (v129 : FVec Ideal S128x17x53 .bf16) (v131 : FVec Ideal S53x32 .bf16) (v132 : Vec Ideal S32 .f32)
    (q : ℕ) (hq : q < 17) (hsl : S128x17x53.Slices ![0, q, 0] S128x1x53) (hsc : S128x1x53.ShapeCasts S128x53)
    (h1 : S32.ShapeCasts S1x32) (h2 : S1x32.Broadcasts S128x32) (r : Fin 128) (u : Fin 32) :
    maximumf (addf (matmul D none (shapeCast S128x53 (extractStridedSlice S128x1x53 ![0, q, 0] v129 hsl) hsc) v131
          (constant S128x32 .f32 0x00000000#32)) (broadcastTo S128x32 (shapeCast S1x32 v132 h1) h2))
        (broadcast S128x32 (Scalar.ofBits .f32 0x00000000#32)) (ix2 r u)
      = max ((∑ k : Fin 53, v129 (ix3 r ⟨q, hq⟩ k) * v131 (ix2 k u)) + v132 (ix1 u)) zero := by
  show max (matmul D none (shapeCast S128x53 (extractStridedSlice S128x1x53 ![0, q, 0] v129 hsl) hsc) v131
      (constant S128x32 .f32 0x00000000#32) (ix2 r u) + broadcastTo S128x32 (shapeCast S1x32 v132 h1) h2 (ix2 r u)) zero = _
  rw [mm_apply]
  have eb : broadcastTo S128x32 (shapeCast S1x32 v132 h1) h2 (ix2 r u) = v132 (ix1 u) :=
    (broadcastTo_1b_ab_apply _ h2 r u).trans (shapeCast_a_1a_apply v132 h1 (0 : Fin 1) u)
  rw [eb]
  refine congrArg (fun s => max (s + v132 (ix1 u)) zero) (Finset.sum_congr rfl fun k _ => ?_)
  refine congrArg (· * v131 (ix2 k u)) ?_
  exact (shapeCast_a1b_ab_apply _ hsc r k).trans (slice3_axis1_apply q v129 hsl r (0 : Fin 1) k ⟨q, hq⟩ rfl)

/-- One neighbour slot of a [128, 17, 32] array as a [128, 32] matrix, at (r, u). -/
theorem slot_apply (v134 : FVec Ideal S128x17x32 .f32) (q : ℕ) (hq : q < 17) (hsl : S128x17x32.Slices ![0, q, 0] S128x1x32)
    (hsc : S128x1x32.ShapeCasts S128x32) (r : Fin 128) (u : Fin 32) :
    shapeCast S128x32 (extractStridedSlice S128x1x32 ![0, q, 0] v134 hsl) hsc (ix2 r u) = v134 (ix3 r ⟨q, hq⟩ u) :=
  (shapeCast_a1b_ab_apply _ hsc r u).trans (slice3_axis1_apply q v134 hsl r (0 : Fin 1) u ⟨q, hq⟩ rfl)

/-- A [128, 32] matrix stored as a [1, 128, 1, 32] piece, at (0, r, 0, u). -/
theorem piece_apply {α : Type} (v : S128x32.Idx → α) (h3 : S128x32.ShapeCasts S1x128x1x32) (a : Fin 1) (r : Fin 128) (b : Fin 1) (u : Fin 32) :
    shapeCast S1x128x1x32 v h3 (ix4 a r b u) = v (ix2 r u) :=
  shapeCast_ab_1a1b_apply v h3 a r b u

end LocSE.Ops

end
-- ==== Proof.KernelScratch.lean ====
/-
  The kernel's scratch buffer, as one function of the block of gathered coordinates.

  The body first fills a scratch buffer with the 53-entry encodings of its 128 query points: the neighbours' own
  coordinates in columns 0 and 1, then for each neighbour `j` the three columns `2 + 3 j …` holding the coordinate
  differences against `j` and the lengths. Every one of these 18 stores is a column range of ONE array, the encodings of
  the block, so the buffer read back whole is that array.
-/
import proofs.«147481_j59691455480199_1_alg».proof.Proof.Gen.KernelIdeal.Frame
import proofs.«147481_j59691455480199_1_alg».proof.Proof.KernelOps
import Idealize.ShloMosaic.Lib.Pipeline.Value
import Idealize.ShloMosaic.Lib.Tactic

set_option maxRecDepth 16384

noncomputable section

namespace LocSE.Block

open Cert.KernelIdeal Cert.KernelIdeal.Gen Idealize.ShloMosaic Idealize.ShloMosaic.TcCoe Idealize.SL.Sem
open Idealize.ShloMosaic.ValueIdx Idealize.ShloMosaic.Tactic LocSE LocSE.Layout

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A load of a whole staging buffer reads its contents. -/
theorem load_whole {S : Shape} (M : Memref sig .tc .vmem S .f32) (hM : M.IsWhole) {off : Fin S.rank → Nat}
    (hz : off = fun _ => 0) (inb : ∀ a, off a + S.size a ≤ S.size a) (x : Vec Ideal S .f32) :
    View.readAt (Elt Ideal) M.view (Rect.unit off S.size inb).toLoadRect (hM.unread x) = x := by
  simp only [View.readAt_eq_ld, hM.read_unread, View.ld_unit_zero (S := S) hz]

/-! ## The scratch buffer: the block's encodings -/

/-- The block's coordinates with the leading unit axis dropped, at (r, q, e). -/
theorem pts_at (x0 : Vec Ideal S1x128x17x2 .f32) (r : Fin 128) (q : Fin 17) (e : Fin 2) :
    k0_pay5 x0 (ix3 r q e) = x0 (ix4 (0 : Fin 1) r q e) :=
  shapeCast_1abc_abc_apply x0 _ r q e

/-- The lengths the body computes, at (r, q, 0). -/
theorem lens_at (x0 : Vec Ideal S1x128x17x2 .f32) (r : Fin 128) (q : Fin 17) (u : Fin 1) :
    k0_pay6 x0 (ix3 r q u) = len (fun q e => x0 (ix4 (0 : Fin 1) r q e)) q := by
  refine (Ops.lens_apply (k0_pay5 x0) _ _ r q u).trans ?_
  unfold len
  simp only [pts_at]

/-- The first store: columns 0 and 1 hold the neighbours' own coordinates. -/
theorem head_piece (x0 : Vec Ideal S1x128x17x2 .f32) (hsc : S128x17x2.ShapeCasts S128x17x2)
    (inb : ∀ a, (![0, 0, 0] : Fin 3 → ℕ) a + S128x17x2.size a ≤ S128x17x53.size a) (y : S128x17x2.Idx) :
    shapeCast S128x17x2 (k0_pay5 x0) hsc y
      = encBlk x0 ((Rect.unit (s := S128x17x53) ![0, 0, 0] S128x17x2.size inb).emb y) := by
  obtain ⟨r, q, e, rfl⟩ : ∃ (r : Fin 128) (q : Fin 17) (e : Fin 2), y = ix3 r q e := ⟨y 0, y 1, y 2, eq_ix3 y⟩
  rw [shapeCast_self, pts_at]
  have he := e.isLt
  have hemb : (Rect.unit (s := S128x17x53) ![0, 0, 0] S128x17x2.size inb).emb (ix3 r q e) = ix3 r q ⟨e.val, by omega⟩ :=
    funext fun a => Fin.ext (by
      match a with
      | ⟨0, _⟩ => show 0 + 1 * r.val = r.val; omega
      | ⟨1, _⟩ => show 0 + 1 * q.val = q.val; omega
      | ⟨2, _⟩ => show 0 + 1 * e.val = e.val; omega)
  rw [hemb]
  show _ = enc (fun q e => x0 (ix4 (0 : Fin 1) r q e)) q ⟨e.val, _⟩
  rw [enc_head _ q _ e rfl]

/-- The store for neighbour `j`: columns `2 + 3 j`, `3 + 3 j`, `4 + 3 j` hold the differences against `j` and the lengths. -/
theorem triple_piece (x0 : Vec Ideal S1x128x17x2 .f32) (j : ℕ) (hj : j < 17)
    (hsl : S128x17x2.Slices ![0, j, 0] S128x1x2) (hb : S128x1x2.Broadcasts S128x17x2)
    (hc : Shape.Concatenates [S128x17x2, S128x17x1] S128x17x3 2) (hsc : S128x17x3.ShapeCasts S128x17x3) (o : ℕ)
    (inb : ∀ a, (![0, 0, o] : Fin 3 → ℕ) a + S128x17x3.size a ≤ S128x17x53.size a) (ho : o = 2 + 3 * j) (y : S128x17x3.Idx) :
    shapeCast S128x17x3 (concatenate S128x17x3 2 [⟨S128x17x2, subf (broadcastTo S128x17x2
        (extractStridedSlice S128x1x2 ![0, j, 0] (k0_pay5 x0) hsl) hb) (k0_pay5 x0)⟩, ⟨S128x17x1, k0_pay6 x0⟩] hc) hsc y
      = encBlk x0 ((Rect.unit (s := S128x17x53) ![0, 0, o] S128x17x3.size inb).emb y) := by
  obtain ⟨r, q, e, rfl⟩ : ∃ (r : Fin 128) (q : Fin 17) (e : Fin 3), y = ix3 r q e := ⟨y 0, y 1, y 2, eq_ix3 y⟩
  rw [shapeCast_self]
  refine (Ops.triple_apply (k0_pay5 x0) (k0_pay6 x0) j hj hsl hb hc r q e).trans ?_
  have he := e.isLt
  have hemb : (Rect.unit (s := S128x17x53) ![0, 0, o] S128x17x3.size inb).emb (ix3 r q e) = ix3 r q ⟨o + e.val, by omega⟩ :=
    funext fun a => Fin.ext (by
      match a with
      | ⟨0, _⟩ => show 0 + 1 * r.val = r.val; omega
      | ⟨1, _⟩ => show 0 + 1 * q.val = q.val; omega
      | ⟨2, _⟩ => show o + 1 * e.val = o + e.val; omega)
  rw [hemb]
  show _ = enc (fun q e => x0 (ix4 (0 : Fin 1) r q e)) q ⟨o + e.val, _⟩
  rw [enc_triple _ q ⟨j, hj⟩ e _ (by show o + e.val = 2 + 3 * j + e.val; omega)]
  by_cases h : e.val < 2
  · rw [dif_pos h, dif_pos h, pts_at, pts_at]
  · rw [dif_neg h, dif_neg h, lens_at]

section Run

variable (c : Dev nD) (arg2 : Memref sig .tc .vmem S1x128x17x2 .f32) (harg2 : arg2.IsWhole)
  (arg3 : Memref sig .tc .vmem S1x128x17x32 .f32) (harg3 : arg3.IsWhole) (arg4 : Memref sig .tc .vmem S53x32 .f32) (harg4 : arg4.IsWhole)
  (arg5 : Memref sig .tc .vmem S32 .f32) (harg5 : arg5.IsWhole) (arg6 : Memref sig .tc .vmem S1x128x17x64 .f32) (harg6 : arg6.IsWhole)
  (arg7 : Memref sig .tc .vmem S128x17x53 .f32) (harg7 : arg7.IsWhole)
  (x0 : Vec Ideal S1x128x17x2 .f32) (x1 : Vec Ideal S1x128x17x32 .f32) (x2 : Vec Ideal S53x32 .f32) (x3 : Vec Ideal S32 .f32)

/-! The values the run names on its way, in terms of the input blocks. -/

theorem r_eq : kernelRun0_A.sl.r c arg2 harg2 x0 = k0_pay5 x0 := by
  unfold kernelRun0_A.sl.r; rw [load_whole arg2 harg2 hz4]
theorem r1_eq : kernelRun0_A.sl.r_1 c arg2 harg2 x0 = k0_pay6 x0 := by
  unfold kernelRun0_A.sl.r_1; rw [load_whole arg2 harg2 hz4]
theorem r2_eq : kernelRun0_A.sl.r_2 c arg2 harg2 x0 = k0_pay11 x0 := by
  unfold kernelRun0_A.sl.r_2; rw [load_whole arg2 harg2 hz4]
theorem r3_eq : kernelRun0_A.sl.r_3 c arg2 harg2 x0 = k0_pay18 (k0_pay5 x0) := by
  unfold kernelRun0_A.sl.r_3; rw [r_eq]
theorem r4_eq : kernelRun0_A.sl.r_4 c arg2 harg2 x0 = k0_pay24 (k0_pay5 x0) (k0_pay6 x0) := by
  unfold kernelRun0_A.sl.r_4; rw [r_eq, r1_eq]

/-- Each of the 18 stores into the scratch buffer writes a column range of the block's encodings. -/
theorem scratch_pieces : ∀ p ∈ kernelRun0_A.sl.HS0_18 c arg2 harg2 x0, ∀ x : p.1.shape.Idx,
    p.2 x = (encBlk x0 : S128x17x53.Idx → Elt Ideal .f32) (p.1.emb x) := by
  unfold kernelRun0_A.sl.HS0_18
  simp only [r_eq, r1_eq, r2_eq, r3_eq, r4_eq, load_whole arg2 harg2 hz4]
  intro p hp
  simp only [List.mem_cons, List.not_mem_nil, or_false] at hp
  rcases hp with rfl | rfl | rfl | rfl | rfl | rfl | rfl | rfl | rfl | rfl | rfl | rfl | rfl | rfl | rfl | rfl | rfl | rfl
  · exact fun x => triple_piece x0 16 (by decide) slices_S128x17x2_o0_16_0_S128x1x2 broadcasts_S128x1x2_S128x17x2 concatenates_S128x17x2_S128x17x1_S128x17x3_d2 shapeCasts_S128x17x3_S128x17x3 50 inb_S128x17x53_S128x17x3_0_0_50 rfl x
  · exact fun x => triple_piece x0 15 (by decide) slices_S128x17x2_o0_15_0_S128x1x2 broadcasts_S128x1x2_S128x17x2 concatenates_S128x17x2_S128x17x1_S128x17x3_d2 shapeCasts_S128x17x3_S128x17x3 47 inb_S128x17x53_S128x17x3_0_0_47 rfl x
  · exact fun x => triple_piece x0 14 (by decide) slices_S128x17x2_o0_14_0_S128x1x2 broadcasts_S128x1x2_S128x17x2 concatenates_S128x17x2_S128x17x1_S128x17x3_d2 shapeCasts_S128x17x3_S128x17x3 44 inb_S128x17x53_S128x17x3_0_0_44 rfl x
  · exact fun x => triple_piece x0 13 (by decide) slices_S128x17x2_o0_13_0_S128x1x2 broadcasts_S128x1x2_S128x17x2 concatenates_S128x17x2_S128x17x1_S128x17x3_d2 shapeCasts_S128x17x3_S128x17x3 41 inb_S128x17x53_S128x17x3_0_0_41 rfl x
  · exact fun x => triple_piece x0 12 (by decide) slices_S128x17x2_o0_12_0_S128x1x2 broadcasts_S128x1x2_S128x17x2 concatenates_S128x17x2_S128x17x1_S128x17x3_d2 shapeCasts_S128x17x3_S128x17x3 38 inb_S128x17x53_S128x17x3_0_0_38 rfl x
  · exact fun x => triple_piece x0 11 (by decide) slices_S128x17x2_o0_11_0_S128x1x2 broadcasts_S128x1x2_S128x17x2 concatenates_S128x17x2_S128x17x1_S128x17x3_d2 shapeCasts_S128x17x3_S128x17x3 35 inb_S128x17x53_S128x17x3_0_0_35 rfl x
  · exact fun x => triple_piece x0 10 (by decide) slices_S128x17x2_o0_10_0_S128x1x2 broadcasts_S128x1x2_S128x17x2 concatenates_S128x17x2_S128x17x1_S128x17x3_d2 shapeCasts_S128x17x3_S128x17x3 32 inb_S128x17x53_S128x17x3_0_0_32 rfl x
  · exact fun x => triple_piece x0 9 (by decide) slices_S128x17x2_o0_9_0_S128x1x2 broadcasts_S128x1x2_S128x17x2 concatenates_S128x17x2_S128x17x1_S128x17x3_d2 shapeCasts_S128x17x3_S128x17x3 29 inb_S128x17x53_S128x17x3_0_0_29 rfl x
  · exact fun x => triple_piece x0 8 (by decide) slices_S128x17x2_o0_8_0_S128x1x2 broadcasts_S128x1x2_S128x17x2 concatenates_S128x17x2_S128x17x1_S128x17x3_d2 shapeCasts_S128x17x3_S128x17x3 26 inb_S128x17x53_S128x17x3_0_0_26 rfl x
  · exact fun x => triple_piece x0 7 (by decide) slices_S128x17x2_o0_7_0_S128x1x2 broadcasts_S128x1x2_S128x17x2 concatenates_S128x17x2_S128x17x1_S128x17x3_d2 shapeCasts_S128x17x3_S128x17x3 23 inb_S128x17x53_S128x17x3_0_0_23 rfl x
  · exact fun x => triple_piece x0 6 (by decide) slices_S128x17x2_o0_6_0_S128x1x2 broadcasts_S128x1x2_S128x17x2 concatenates_S128x17x2_S128x17x1_S128x17x3_d2 shapeCasts_S128x17x3_S128x17x3 20 inb_S128x17x53_S128x17x3_0_0_20 rfl x
  · exact fun x => triple_piece x0 5 (by decide) slices_S128x17x2_o0_5_0_S128x1x2 broadcasts_S128x1x2_S128x17x2 concatenates_S128x17x2_S128x17x1_S128x17x3_d2 shapeCasts_S128x17x3_S128x17x3 17 inb_S128x17x53_S128x17x3_0_0_17 rfl x
  · exact fun x => triple_piece x0 4 (by decide) slices_S128x17x2_o0_4_0_S128x1x2 broadcasts_S128x1x2_S128x17x2 concatenates_S128x17x2_S128x17x1_S128x17x3_d2 shapeCasts_S128x17x3_S128x17x3 14 inb_S128x17x53_S128x17x3_0_0_14 rfl x
  · exact fun x => triple_piece x0 3 (by decide) slices_S128x17x2_o0_3_0_S128x1x2 broadcasts_S128x1x2_S128x17x2 concatenates_S128x17x2_S128x17x1_S128x17x3_d2 shapeCasts_S128x17x3_S128x17x3 11 inb_S128x17x53_S128x17x3_0_0_11 rfl x
  · exact fun x => triple_piece x0 2 (by decide) slices_S128x17x2_o0_2_0_S128x1x2 broadcasts_S128x1x2_S128x17x2 concatenates_S128x17x2_S128x17x1_S128x17x3_d2 shapeCasts_S128x17x3_S128x17x3 8 inb_S128x17x53_S128x17x3_0_0_8 rfl x
  · exact fun x => triple_piece x0 1 (by decide) slices_S128x17x2_o0_1_0_S128x1x2 broadcasts_S128x1x2_S128x17x2 concatenates_S128x17x2_S128x17x1_S128x17x3_d2 shapeCasts_S128x17x3_S128x17x3 5 inb_S128x17x53_S128x17x3_0_0_5 rfl x
  · exact fun x => triple_piece x0 0 (by decide) slices_S128x17x2_o0_0_0_S128x1x2 broadcasts_S128x1x2_S128x17x2 concatenates_S128x17x2_S128x17x1_S128x17x3_d2 shapeCasts_S128x17x3_S128x17x3 2 inb_S128x17x53_S128x17x3_0_0_2 rfl x
  · exact fun x => head_piece x0 shapeCasts_S128x17x2_S128x17x2 inb_S128x17x53_S128x17x2_0_0_0 x

/-- The 18 column ranges fill the buffer. -/
theorem scratch_cover : ∀ y : S128x17x53.Idx, ∃ p ∈ kernelRun0_A.sl.HS0_18 c arg2 harg2 x0, y ∈ p.1.set :=
  View.cover_of_tiledBy (kernelRun0_A.sl.HS0_18 c arg2 harg2 x0) ![128, 17, 1] (by sl_kernel_rfl)

/-- The scratch buffer read back whole, after its 18 stores, is the block's encodings. -/
theorem scratch_eq : kernelRun0_A.sl.v128 c arg2 harg2 arg7 x0 = (encBlk x0 : Vec Ideal S128x17x53 .f32) := by
  unfold kernelRun0_A.sl.v128
  rw [View.readCov_eq_canon']
  funext y
  have hy : (Rect.unit (s := S128x17x53) ![0, 0, 0] S128x17x53.size inb_S128x17x53_S128x17x53_0_0_0).toLoadRect.idx y = y :=
    funext fun a => Fin.ext (by
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega)
  show View.canon (Val := Elt Ideal) (s := S128x17x53) (e := .f32) (kernelRun0_A.sl.HS0_18 c arg2 harg2 x0)
    ((Rect.unit (s := S128x17x53) ![0, 0, 0] S128x17x53.size inb_S128x17x53_S128x17x53_0_0_0).toLoadRect.idx y) = encBlk x0 y
  rw [hy]
  exact View.canon_apply_of_pieces (Val := Elt Ideal) (S := S128x17x53) (e := .f32) (encBlk x0) _
    (scratch_pieces c arg2 harg2 x0) y (scratch_cover c arg2 harg2 x0 y)

theorem r5_eq : kernelRun0_A.sl.r_5 c arg2 harg2 arg7 x0 = k0_pay28 (encBlk x0 : Vec Ideal S128x17x53 .f32) := by
  unfold kernelRun0_A.sl.r_5; rw [scratch_eq]
theorem r6_eq : kernelRun0_A.sl.r_6 c arg4 harg4 x2 = k0_pay29 x2 := by
  unfold kernelRun0_A.sl.r_6; rw [load_whole arg4 harg4 hz2]
theorem r7_eq : kernelRun0_A.sl.r_7 c arg5 harg5 x3 = x3 := by
  unfold kernelRun0_A.sl.r_7; rw [load_whole arg5 harg5 hz1]
theorem r8_eq : kernelRun0_A.sl.r_8 c arg3 harg3 x1 = k0_pay30 x1 := by
  unfold kernelRun0_A.sl.r_8; rw [load_whole arg3 harg3 hz4]
theorem r9_eq : kernelRun0_A.sl.r_9 c arg2 harg2 arg4 harg4 arg5 harg5 arg7 x0 x2 x3
    = k0_pay31 (encBlk x0 : Vec Ideal S128x17x53 .f32) x2 x3 := by
  unfold kernelRun0_A.sl.r_9; rw [scratch_eq, load_whole arg4 harg4 hz2, load_whole arg5 harg5 hz1]

end Run

end LocSE.Block

end
-- ==== Proof.KernelOut.lean ====
/-
  What one grid point of the kernel leaves in its output block, as one function of the four input blocks.

  With the scratch buffer holding the block's encodings, the body stores, for each of the 17 neighbour slots, the
  rectified dense layer of that slot's encodings in columns 0..31 of the slot's output rows and the slot's features in
  columns 32..63: 34 stores, each a rectangle of ONE array, the block's output rows.
-/
import proofs.«147481_j59691455480199_1_alg».proof.Proof.KernelScratch

set_option maxRecDepth 16384

noncomputable section

namespace LocSE.Block

open Cert.KernelIdeal Cert.KernelIdeal.Gen Idealize.ShloMosaic Idealize.ShloMosaic.TcCoe Idealize.SL.Sem
open Idealize.ShloMosaic.ValueIdx Idealize.ShloMosaic.Tactic LocSE LocSE.Layout

/-! ## The output block -/

/-- The store of neighbour slot `q`'s dense layer: columns 0..31 of the slot's output rows. -/
theorem dense_piece (x0 : Vec Ideal S1x128x17x2 .f32) (x1 : Vec Ideal S1x128x17x32 .f32) (x2 : Vec Ideal S53x32 .f32)
    (x3 : Vec Ideal S32 .f32) (q : ℕ) (hq : q < 17) (hsl : S128x17x53.Slices ![0, q, 0] S128x1x53)
    (hsc : S128x1x53.ShapeCasts S128x53) (h1 : S32.ShapeCasts S1x32) (h2 : S1x32.Broadcasts S128x32)
    (h3 : S128x32.ShapeCasts S1x128x1x32)
    (inb : ∀ a, (![0, 0, q, 0] : Fin 4 → ℕ) a + S1x128x1x32.size a ≤ S1x128x17x64.size a) (y : S1x128x1x32.Idx) :
    shapeCast S1x128x1x32 (maximumf (addf (matmul Ops.D none (shapeCast S128x53 (extractStridedSlice S128x1x53 ![0, q, 0]
          (k0_pay28 (encBlk x0 : Vec Ideal S128x17x53 .f32)) hsl) hsc) (k0_pay29 x2) (constant S128x32 .f32 0x00000000#32))
        (broadcastTo S128x32 (shapeCast S1x32 x3 h1) h2)) (broadcast S128x32 (Scalar.ofBits .f32 0x00000000#32))) h3 y
      = blk x0 x1 x2 x3 ((Rect.unit (s := S1x128x17x64) ![0, 0, q, 0] S1x128x1x32.size inb).emb y) := by
  obtain ⟨a, r, b, u, rfl⟩ : ∃ (a : Fin 1) (r : Fin 128) (b : Fin 1) (u : Fin 32), y = ix4 a r b u :=
    ⟨y 0, y 1, y 2, y 3, eq_ix4 y⟩
  refine (Ops.piece_apply _ h3 a r b u).trans ?_
  refine (Ops.dense_apply _ _ x3 q hq hsl hsc h1 h2 r u).trans ?_
  have hb : b.val = 0 := by omega
  have hu := u.isLt
  have hemb : (Rect.unit (s := S1x128x17x64) ![0, 0, q, 0] S1x128x1x32.size inb).emb (ix4 a r b u)
      = ix4 a r ⟨q, hq⟩ ⟨u.val, by omega⟩ :=
    funext fun ax => Fin.ext (by
      match ax with
      | ⟨0, _⟩ => show 0 + 1 * a.val = a.val; omega
      | ⟨1, _⟩ => show 0 + 1 * r.val = r.val; omega
      | ⟨2, _⟩ => show q + 1 * b.val = q; omega
      | ⟨3, _⟩ => show 0 + 1 * u.val = u.val; omega)
  rw [hemb]
  show _ = row (fun q e => x0 (ix4 (0 : Fin 1) r q e)) (fun q u => x1 (ix4 (0 : Fin 1) r q u)) x2 x3 ⟨q, hq⟩ ⟨u.val, _⟩
  rw [row_dense _ _ _ _ _ _ u rfl]
  rfl

/-- The store of neighbour slot `q`'s features: columns 32..63 of the slot's output rows. -/
theorem slot_piece (x0 : Vec Ideal S1x128x17x2 .f32) (x1 : Vec Ideal S1x128x17x32 .f32) (x2 : Vec Ideal S53x32 .f32)
    (x3 : Vec Ideal S32 .f32) (q : ℕ) (hq : q < 17) (hsl : S128x17x32.Slices ![0, q, 0] S128x1x32)
    (hsc : S128x1x32.ShapeCasts S128x32) (h3 : S128x32.ShapeCasts S1x128x1x32)
    (inb : ∀ a, (![0, 0, q, 32] : Fin 4 → ℕ) a + S1x128x1x32.size a ≤ S1x128x17x64.size a) (y : S1x128x1x32.Idx) :
    shapeCast S1x128x1x32 (shapeCast S128x32 (extractStridedSlice S128x1x32 ![0, q, 0] (k0_pay30 x1) hsl) hsc) h3 y
      = blk x0 x1 x2 x3 ((Rect.unit (s := S1x128x17x64) ![0, 0, q, 32] S1x128x1x32.size inb).emb y) := by
  obtain ⟨a, r, b, u, rfl⟩ : ∃ (a : Fin 1) (r : Fin 128) (b : Fin 1) (u : Fin 32), y = ix4 a r b u :=
    ⟨y 0, y 1, y 2, y 3, eq_ix4 y⟩
  refine (Ops.piece_apply _ h3 a r b u).trans ?_
  refine (Ops.slot_apply _ q hq hsl hsc r u).trans ?_
  have hb : b.val = 0 := by omega
  have hu := u.isLt
  have hemb : (Rect.unit (s := S1x128x17x64) ![0, 0, q, 32] S1x128x1x32.size inb).emb (ix4 a r b u)
      = ix4 a r ⟨q, hq⟩ ⟨32 + u.val, by omega⟩ :=
    funext fun ax => Fin.ext (by
      match ax with
      | ⟨0, _⟩ => show 0 + 1 * a.val = a.val; omega
      | ⟨1, _⟩ => show 0 + 1 * r.val = r.val; omega
      | ⟨2, _⟩ => show q + 1 * b.val = q; omega
      | ⟨3, _⟩ => show 32 + 1 * u.val = 32 + u.val; omega)
  rw [hemb]
  show _ = row (fun q e => x0 (ix4 (0 : Fin 1) r q e)) (fun q u => x1 (ix4 (0 : Fin 1) r q u)) x2 x3 ⟨q, hq⟩ ⟨32 + u.val, _⟩
  rw [row_feat _ _ _ _ _ _ u rfl]
  exact shapeCast_1abc_abc_apply x1 _ r ⟨q, hq⟩ u

/-- Each of the 34 stores into the output's staging buffer writes a rectangle of the block's output rows. -/
theorem out_pieces (c : Dev nD) (i : grid0.Coords) (arg2 : Memref sig .tc .vmem S1x128x17x2 .f32) (harg2 : arg2.IsWhole)
    (arg3 : Memref sig .tc .vmem S1x128x17x32 .f32) (harg3 : arg3.IsWhole) (arg4 : Memref sig .tc .vmem S53x32 .f32) (harg4 : arg4.IsWhole)
    (arg5 : Memref sig .tc .vmem S32 .f32) (harg5 : arg5.IsWhole) (arg6 : Memref sig .tc .vmem S1x128x17x64 .f32) (harg6 : arg6.IsWhole)
    (arg7 : Memref sig .tc .vmem S128x17x53 .f32) (harg7 : arg7.IsWhole)
    (x0 : Vec Ideal S1x128x17x2 .f32) (x1 : Vec Ideal S1x128x17x32 .f32) (x2 : Vec Ideal S53x32 .f32) (x3 : Vec Ideal S32 .f32) :
    ∀ p ∈ (kernelRun0_A c i arg2 harg2 arg3 harg3 arg4 harg4 arg5 harg5 arg6 harg6 arg7 harg7 x0 x1 x2 x3).1, ∀ x : p.1.shape.Idx,
      p.2 x = (blk x0 x1 x2 x3 : S1x128x17x64.Idx → Elt Ideal .f32) (p.1.emb x) := by
  unfold kernelRun0_A
  dsimp only
  simp only [kernelRun0_A.sl.r_10, kernelRun0_A.sl.r_11, kernelRun0_A.sl.r_12, kernelRun0_A.sl.r_13, kernelRun0_A.sl.r_14,
    kernelRun0_A.sl.r_15, kernelRun0_A.sl.cst_154]
  simp only [r5_eq, r6_eq, r7_eq, r8_eq, r9_eq]
  intro p hp
  simp only [List.mem_cons, List.not_mem_nil, or_false] at hp
  rcases hp with rfl | rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl | rfl
  · exact fun y => slot_piece x0 x1 x2 x3 16 (by decide) slices_S128x17x32_o0_16_0_S128x1x32 shapeCasts_S128x1x32_S128x32 shapeCasts_S128x32_S1x128x1x32 inb_S1x128x17x64_S1x128x1x32_0_0_16_32 y
  · exact fun y => dense_piece x0 x1 x2 x3 16 (by decide) slices_S128x17x53_o0_16_0_S128x1x53 shapeCasts_S128x1x53_S128x53 shapeCasts_S32_S1x32 broadcasts_S1x32_S128x32 shapeCasts_S128x32_S1x128x1x32 inb_S1x128x17x64_S1x128x1x32_0_0_16_0 y
  · exact fun y => slot_piece x0 x1 x2 x3 15 (by decide) slices_S128x17x32_o0_15_0_S128x1x32 shapeCasts_S128x1x32_S128x32 shapeCasts_S128x32_S1x128x1x32 inb_S1x128x17x64_S1x128x1x32_0_0_15_32 y
  · exact fun y => dense_piece x0 x1 x2 x3 15 (by decide) slices_S128x17x53_o0_15_0_S128x1x53 shapeCasts_S128x1x53_S128x53 shapeCasts_S32_S1x32 broadcasts_S1x32_S128x32 shapeCasts_S128x32_S1x128x1x32 inb_S1x128x17x64_S1x128x1x32_0_0_15_0 y
  · exact fun y => slot_piece x0 x1 x2 x3 14 (by decide) slices_S128x17x32_o0_14_0_S128x1x32 shapeCasts_S128x1x32_S128x32 shapeCasts_S128x32_S1x128x1x32 inb_S1x128x17x64_S1x128x1x32_0_0_14_32 y
  · exact fun y => dense_piece x0 x1 x2 x3 14 (by decide) slices_S128x17x53_o0_14_0_S128x1x53 shapeCasts_S128x1x53_S128x53 shapeCasts_S32_S1x32 broadcasts_S1x32_S128x32 shapeCasts_S128x32_S1x128x1x32 inb_S1x128x17x64_S1x128x1x32_0_0_14_0 y
  · exact fun y => slot_piece x0 x1 x2 x3 13 (by decide) slices_S128x17x32_o0_13_0_S128x1x32 shapeCasts_S128x1x32_S128x32 shapeCasts_S128x32_S1x128x1x32 inb_S1x128x17x64_S1x128x1x32_0_0_13_32 y
  · exact fun y => dense_piece x0 x1 x2 x3 13 (by decide) slices_S128x17x53_o0_13_0_S128x1x53 shapeCasts_S128x1x53_S128x53 shapeCasts_S32_S1x32 broadcasts_S1x32_S128x32 shapeCasts_S128x32_S1x128x1x32 inb_S1x128x17x64_S1x128x1x32_0_0_13_0 y
  · exact fun y => slot_piece x0 x1 x2 x3 12 (by decide) slices_S128x17x32_o0_12_0_S128x1x32 shapeCasts_S128x1x32_S128x32 shapeCasts_S128x32_S1x128x1x32 inb_S1x128x17x64_S1x128x1x32_0_0_12_32 y
  · exact fun y => dense_piece x0 x1 x2 x3 12 (by decide) slices_S128x17x53_o0_12_0_S128x1x53 shapeCasts_S128x1x53_S128x53 shapeCasts_S32_S1x32 broadcasts_S1x32_S128x32 shapeCasts_S128x32_S1x128x1x32 inb_S1x128x17x64_S1x128x1x32_0_0_12_0 y
  · exact fun y => slot_piece x0 x1 x2 x3 11 (by decide) slices_S128x17x32_o0_11_0_S128x1x32 shapeCasts_S128x1x32_S128x32 shapeCasts_S128x32_S1x128x1x32 inb_S1x128x17x64_S1x128x1x32_0_0_11_32 y
  · exact fun y => dense_piece x0 x1 x2 x3 11 (by decide) slices_S128x17x53_o0_11_0_S128x1x53 shapeCasts_S128x1x53_S128x53 shapeCasts_S32_S1x32 broadcasts_S1x32_S128x32 shapeCasts_S128x32_S1x128x1x32 inb_S1x128x17x64_S1x128x1x32_0_0_11_0 y
  · exact fun y => slot_piece x0 x1 x2 x3 10 (by decide) slices_S128x17x32_o0_10_0_S128x1x32 shapeCasts_S128x1x32_S128x32 shapeCasts_S128x32_S1x128x1x32 inb_S1x128x17x64_S1x128x1x32_0_0_10_32 y
  · exact fun y => dense_piece x0 x1 x2 x3 10 (by decide) slices_S128x17x53_o0_10_0_S128x1x53 shapeCasts_S128x1x53_S128x53 shapeCasts_S32_S1x32 broadcasts_S1x32_S128x32 shapeCasts_S128x32_S1x128x1x32 inb_S1x128x17x64_S1x128x1x32_0_0_10_0 y
  · exact fun y => slot_piece x0 x1 x2 x3 9 (by decide) slices_S128x17x32_o0_9_0_S128x1x32 shapeCasts_S128x1x32_S128x32 shapeCasts_S128x32_S1x128x1x32 inb_S1x128x17x64_S1x128x1x32_0_0_9_32 y
  · exact fun y => dense_piece x0 x1 x2 x3 9 (by decide) slices_S128x17x53_o0_9_0_S128x1x53 shapeCasts_S128x1x53_S128x53 shapeCasts_S32_S1x32 broadcasts_S1x32_S128x32 shapeCasts_S128x32_S1x128x1x32 inb_S1x128x17x64_S1x128x1x32_0_0_9_0 y
  · exact fun y => slot_piece x0 x1 x2 x3 8 (by decide) slices_S128x17x32_o0_8_0_S128x1x32 shapeCasts_S128x1x32_S128x32 shapeCasts_S128x32_S1x128x1x32 inb_S1x128x17x64_S1x128x1x32_0_0_8_32 y
  · exact fun y => dense_piece x0 x1 x2 x3 8 (by decide) slices_S128x17x53_o0_8_0_S128x1x53 shapeCasts_S128x1x53_S128x53 shapeCasts_S32_S1x32 broadcasts_S1x32_S128x32 shapeCasts_S128x32_S1x128x1x32 inb_S1x128x17x64_S1x128x1x32_0_0_8_0 y
  · exact fun y => slot_piece x0 x1 x2 x3 7 (by decide) slices_S128x17x32_o0_7_0_S128x1x32 shapeCasts_S128x1x32_S128x32 shapeCasts_S128x32_S1x128x1x32 inb_S1x128x17x64_S1x128x1x32_0_0_7_32 y
  · exact fun y => dense_piece x0 x1 x2 x3 7 (by decide) slices_S128x17x53_o0_7_0_S128x1x53 shapeCasts_S128x1x53_S128x53 shapeCasts_S32_S1x32 broadcasts_S1x32_S128x32 shapeCasts_S128x32_S1x128x1x32 inb_S1x128x17x64_S1x128x1x32_0_0_7_0 y
  · exact fun y => slot_piece x0 x1 x2 x3 6 (by decide) slices_S128x17x32_o0_6_0_S128x1x32 shapeCasts_S128x1x32_S128x32 shapeCasts_S128x32_S1x128x1x32 inb_S1x128x17x64_S1x128x1x32_0_0_6_32 y
  · exact fun y => dense_piece x0 x1 x2 x3 6 (by decide) slices_S128x17x53_o0_6_0_S128x1x53 shapeCasts_S128x1x53_S128x53 shapeCasts_S32_S1x32 broadcasts_S1x32_S128x32 shapeCasts_S128x32_S1x128x1x32 inb_S1x128x17x64_S1x128x1x32_0_0_6_0 y
  · exact fun y => slot_piece x0 x1 x2 x3 5 (by decide) slices_S128x17x32_o0_5_0_S128x1x32 shapeCasts_S128x1x32_S128x32 shapeCasts_S128x32_S1x128x1x32 inb_S1x128x17x64_S1x128x1x32_0_0_5_32 y
  · exact fun y => dense_piece x0 x1 x2 x3 5 (by decide) slices_S128x17x53_o0_5_0_S128x1x53 shapeCasts_S128x1x53_S128x53 shapeCasts_S32_S1x32 broadcasts_S1x32_S128x32 shapeCasts_S128x32_S1x128x1x32 inb_S1x128x17x64_S1x128x1x32_0_0_5_0 y
  · exact fun y => slot_piece x0 x1 x2 x3 4 (by decide) slices_S128x17x32_o0_4_0_S128x1x32 shapeCasts_S128x1x32_S128x32 shapeCasts_S128x32_S1x128x1x32 inb_S1x128x17x64_S1x128x1x32_0_0_4_32 y
  · exact fun y => dense_piece x0 x1 x2 x3 4 (by decide) slices_S128x17x53_o0_4_0_S128x1x53 shapeCasts_S128x1x53_S128x53 shapeCasts_S32_S1x32 broadcasts_S1x32_S128x32 shapeCasts_S128x32_S1x128x1x32 inb_S1x128x17x64_S1x128x1x32_0_0_4_0 y
  · exact fun y => slot_piece x0 x1 x2 x3 3 (by decide) slices_S128x17x32_o0_3_0_S128x1x32 shapeCasts_S128x1x32_S128x32 shapeCasts_S128x32_S1x128x1x32 inb_S1x128x17x64_S1x128x1x32_0_0_3_32 y
  · exact fun y => dense_piece x0 x1 x2 x3 3 (by decide) slices_S128x17x53_o0_3_0_S128x1x53 shapeCasts_S128x1x53_S128x53 shapeCasts_S32_S1x32 broadcasts_S1x32_S128x32 shapeCasts_S128x32_S1x128x1x32 inb_S1x128x17x64_S1x128x1x32_0_0_3_0 y
  · exact fun y => slot_piece x0 x1 x2 x3 2 (by decide) slices_S128x17x32_o0_2_0_S128x1x32 shapeCasts_S128x1x32_S128x32 shapeCasts_S128x32_S1x128x1x32 inb_S1x128x17x64_S1x128x1x32_0_0_2_32 y
  · exact fun y => dense_piece x0 x1 x2 x3 2 (by decide) slices_S128x17x53_o0_2_0_S128x1x53 shapeCasts_S128x1x53_S128x53 shapeCasts_S32_S1x32 broadcasts_S1x32_S128x32 shapeCasts_S128x32_S1x128x1x32 inb_S1x128x17x64_S1x128x1x32_0_0_2_0 y
  · exact fun y => slot_piece x0 x1 x2 x3 1 (by decide) slices_S128x17x32_o0_1_0_S128x1x32 shapeCasts_S128x1x32_S128x32 shapeCasts_S128x32_S1x128x1x32 inb_S1x128x17x64_S1x128x1x32_0_0_1_32 y
  · exact fun y => dense_piece x0 x1 x2 x3 1 (by decide) slices_S128x17x53_o0_1_0_S128x1x53 shapeCasts_S128x1x53_S128x53 shapeCasts_S32_S1x32 broadcasts_S1x32_S128x32 shapeCasts_S128x32_S1x128x1x32 inb_S1x128x17x64_S1x128x1x32_0_0_1_0 y
  · exact fun y => slot_piece x0 x1 x2 x3 0 (by decide) slices_S128x17x32_o0_0_0_S128x1x32 shapeCasts_S128x1x32_S128x32 shapeCasts_S128x32_S1x128x1x32 inb_S1x128x17x64_S1x128x1x32_0_0_0_32 y
  · exact fun y => dense_piece x0 x1 x2 x3 0 (by decide) slices_S128x17x53_o0_0_0_S128x1x53 shapeCasts_S128x1x53_S128x53 shapeCasts_S32_S1x32 broadcasts_S1x32_S128x32 shapeCasts_S128x32_S1x128x1x32 inb_S1x128x17x64_S1x128x1x32_0_0_0_0 y

/-- What the body leaves in the output's staging buffer: the block's output rows. -/
theorem out_eq (c : Dev nD) (i : grid0.Coords) (arg2 : Memref sig .tc .vmem S1x128x17x2 .f32) (harg2 : arg2.IsWhole)
    (arg3 : Memref sig .tc .vmem S1x128x17x32 .f32) (harg3 : arg3.IsWhole) (arg4 : Memref sig .tc .vmem S53x32 .f32) (harg4 : arg4.IsWhole)
    (arg5 : Memref sig .tc .vmem S32 .f32) (harg5 : arg5.IsWhole) (arg6 : Memref sig .tc .vmem S1x128x17x64 .f32) (harg6 : arg6.IsWhole)
    (arg7 : Memref sig .tc .vmem S128x17x53 .f32) (harg7 : arg7.IsWhole)
    (x0 : Vec Ideal S1x128x17x2 .f32) (x1 : Vec Ideal S1x128x17x32 .f32) (x2 : Vec Ideal S53x32 .f32) (x3 : Vec Ideal S32 .f32) :
    out0_A_4 c i arg2 harg2 arg3 harg3 arg4 harg4 arg5 harg5 arg6 harg6 arg7 harg7 x0 x1 x2 x3 = (blk x0 x1 x2 x3 : Vec Ideal S1x128x17x64 .f32) := by
  unfold out0_A_4
  rw [View.read_writes_eq_canon _ _ _ (cover0_A_4 c i arg2 harg2 arg3 harg3 arg4 harg4 arg5 harg5 arg6 harg6 arg7 harg7 x0 x1 x2 x3)]
  funext y
  exact View.canon_apply_of_pieces (Val := Elt Ideal) (S := S1x128x17x64) (e := .f32) (blk x0 x1 x2 x3) _
    (out_pieces c i arg2 harg2 arg3 harg3 arg4 harg4 arg5 harg5 arg6 harg6 arg7 harg7 x0 x1 x2 x3) y (cover0_A_4 c i arg2 harg2 arg3 harg3 arg4 harg4 arg5 harg5 arg6 harg6 arg7 harg7 x0 x1 x2 x3 y)

end LocSE.Block

end
-- ==== Proof.KernelArr.lean ====
/-
  From blocks to the whole result array.

  The grid has 4 × 256 points; point `t` works on batch `t / 256` and on the 128 query points from `128 (t % 256)` on:
  it reads that block of the gathered coordinates and of the gathered features, the whole weights and bias, and writes
  back that block of the result. Every point writes its block back, the blocks are disjoint and fill the array, so the
  result array ends as the output rows of the whole gathered arrays.
-/
import proofs.«147481_j59691455480199_1_alg».proof.Proof.Gen.KernelIdeal.Value
import proofs.«147481_j59691455480199_1_alg».proof.Proof.KernelOut
import Idealize.ShloMosaic.Lib.Pipeline.Value

set_option maxRecDepth 16384

noncomputable section

namespace LocSE.Arr

open Cert.KernelIdeal Cert.KernelIdeal.Gen Idealize.ShloMosaic Idealize.ShloMosaic.TcCoe Idealize.SL.Sem
open Idealize.ShloMosaic.Pipeline (Dat)
open Idealize.ShloMosaic.ValueIdx LocSE

variable (m : (ℓ : Loc nD τ sig) → Buf (Elt Ideal) ℓ) (ρ : Dev nD → PrngReg)

/-- Where each window's block sits at point `t`: the two moving windows and the result's move together, batch by batch
    and 128 query points at a time; the weights and the bias stay. -/
theorem idx_facts : ∀ t : Fin cfg0.N,
    win0_4.index t (0 : Fin 4) = t.val / 256 ∧ win0_4.index t (1 : Fin 4) = t.val % 256
    ∧ win0_4.index t (2 : Fin 4) = 0 ∧ win0_4.index t (3 : Fin 4) = 0
    ∧ win0_0.index t (0 : Fin 4) = t.val / 256 ∧ win0_0.index t (1 : Fin 4) = t.val % 256
    ∧ win0_0.index t (2 : Fin 4) = 0 ∧ win0_0.index t (3 : Fin 4) = 0
    ∧ win0_1.index t (0 : Fin 4) = t.val / 256 ∧ win0_1.index t (1 : Fin 4) = t.val % 256
    ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0 :=
  (by decide +kernel : ∀ t : Fin grid0.N, _)

/-- The array the result's rows are computed from, in one name. -/
abbrev whole (c : Dev nD) : S4x32768x17x64.Idx → EReal :=
  out (V m c main_v16) (V m c main_v31) (V m c main_arg2) (V m c main_arg3)

/-- What point `t` writes back is block `t` of the whole array's output rows. -/
theorem flushed_eq (c : Dev nD) (t : Fin cfg0.N) :
    (dats m 0 c).flushed 4 t = ((cfg0.win 4).blk t).view.read (Elt Ideal) (whole m c) := by
  rw [Cert.KernelIdeal.Value.flushed4_A, Block.out_eq]
  obtain ⟨a0, a1, a2, a3, b0, b1, b2, b3, c0, c1, c2, c3, d0, d1, e0⟩ := idx_facts t
  funext y
  show blk (iblk m c 0 t) (iblk m c 1 t) (iblk m c 2 t) (iblk m c 3 t) y = whole m c (((cfg0.win 4).blk t).view.emb y)
  have hy0 : (y 0).val < 1 := (y 0).isLt
  refine blk_eq_out _ _ _ _ _ _ _ _ y _ (fun q e => ?_) (fun q u => ?_) ?_ ?_ ?_ ?_
  · show V m c main_v16 (((cfg0.win 0).blk t).view.emb (ix4 (0 : Fin 1) (y 1) q e))
      = V m c main_v16 (ix4 ((((cfg0.win 4).blk t).view.emb y) 0) ((((cfg0.win 4).blk t).view.emb y) 1) q e)
    refine congrArg (V m c main_v16) (funext fun a => Fin.ext ?_)
    match a with
    | ⟨0, _⟩ => show win0_0.index t (0 : Fin 4) * 1 + 1 * 0 = win0_4.index t (0 : Fin 4) * 1 + 1 * (y 0).val; omega
    | ⟨1, _⟩ => show win0_0.index t (1 : Fin 4) * 128 + 1 * (y 1).val = win0_4.index t (1 : Fin 4) * 128 + 1 * (y 1).val; omega
    | ⟨2, _⟩ => show win0_0.index t (2 : Fin 4) * 17 + 1 * q.val = q.val; omega
    | ⟨3, _⟩ => show win0_0.index t (3 : Fin 4) * 2 + 1 * e.val = e.val; omega
  · show V m c main_v31 (((cfg0.win 1).blk t).view.emb (ix4 (0 : Fin 1) (y 1) q u))
      = V m c main_v31 (ix4 ((((cfg0.win 4).blk t).view.emb y) 0) ((((cfg0.win 4).blk t).view.emb y) 1) q u)
    refine congrArg (V m c main_v31) (funext fun a => Fin.ext ?_)
    match a with
    | ⟨0, _⟩ => show win0_1.index t (0 : Fin 4) * 1 + 1 * 0 = win0_4.index t (0 : Fin 4) * 1 + 1 * (y 0).val; omega
    | ⟨1, _⟩ => show win0_1.index t (1 : Fin 4) * 128 + 1 * (y 1).val = win0_4.index t (1 : Fin 4) * 128 + 1 * (y 1).val; omega
    | ⟨2, _⟩ => show win0_1.index t (2 : Fin 4) * 17 + 1 * q.val = q.val; omega
    | ⟨3, _⟩ => show win0_1.index t (3 : Fin 4) * 32 + 1 * u.val = u.val; omega
  · funext z
    show V m c main_arg2 (((cfg0.win 2).blk t).view.emb z) = V m c main_arg2 z
    refine congrArg (V m c main_arg2) (funext fun a => Fin.ext ?_)
    match a with
    | ⟨0, _⟩ => show win0_2.index t (0 : Fin 2) * 53 + 1 * (z 0).val = (z 0).val; omega
    | ⟨1, _⟩ => show win0_2.index t (1 : Fin 2) * 32 + 1 * (z 1).val = (z 1).val; omega
  · funext z
    show V m c main_arg3 (((cfg0.win 3).blk t).view.emb z) = V m c main_arg3 z
    refine congrArg (V m c main_arg3) (funext fun a => Fin.ext ?_)
    match a with
    | ⟨0, _⟩ => show win0_3.index t (0 : Fin 1) * 32 + 1 * (z 0).val = (z 0).val; omega
  · show (y 2).val = win0_4.index t (2 : Fin 4) * 17 + 1 * (y 2).val; omega
  · show (y 3).val = win0_4.index t (3 : Fin 4) * 64 + 1 * (y 3).val; omega

/-- An index of the result array is in point `t`'s block iff each coordinate is in the block's range on its axis. -/
theorem mem_blk (t : Fin cfg0.N) (i : S4x32768x17x64.Idx) :
    i ∈ ((cfg0.win 4).blk t).view.set ↔ ∀ a : Fin 4, win0_4.index t a * S1x128x17x64.size a ≤ (i a).val
      ∧ (i a).val < win0_4.index t a * S1x128x17x64.size a + S1x128x17x64.size a := by
  show i ∈ ((View.whole main_v32).slice (win0_4.rect t)).set ↔ _
  rw [View.set_slice_whole, Rect.mem_set_unit]
  exact Iff.rfl

/-- Every index of the result array is in the block of the point of its batch and its run of 128 query points. -/
theorem cover (i : S4x32768x17x64.Idx) : ∃ t : Fin cfg0.N, (cfg0.win 4).flush t = true ∧ i ∈ ((cfg0.win 4).blk t).view.set := by
  have h0 : (i 0).val < 4 := (i 0).isLt
  have h1 : (i 1).val < 32768 := (i 1).isLt
  have h2 : (i 2).val < 17 := (i 2).isLt
  have h3 : (i 3).val < 64 := (i 3).isLt
  have hN : cfg0.N = 1024 := N_0
  let t : Fin cfg0.N := ⟨(i 0).val * 256 + (i 1).val / 128, by rw [hN]; omega⟩
  obtain ⟨a0, a1, a2, a3, -⟩ := idx_facts t
  have ht : t.val = (i 0).val * 256 + (i 1).val / 128 := rfl
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 17 ≤ (i 2).val ∧ (i 2).val < win0_4.index t (2 : Fin 4) * 17 + 17; omega
  | ⟨3, _⟩ => show win0_4.index t (3 : Fin 4) * 64 ≤ (i 3).val ∧ (i 3).val < win0_4.index t (3 : Fin 4) * 64 + 64; omega

/-- The result array after the run: the output rows of the whole gathered arrays. -/
theorem final (c : Dev nD) : (dats m 0 c).arrAt 4 cfg0.N = whole m c :=
  (dats m 0 c).arrAt_eq_of_cover 4 (whole m c) (fun t _ => flushed_eq m c t) cover

/-- The kernel's run, read: the result array at the output rows of the arrays the region finds, the arguments unchanged. -/
theorem run : θ_run defs (onTc (τ := τ) (main (F := Ideal))) ⟨m, fun _ => 0, ρ⟩ fun r => ∀ c : Dev nD,
      r.2.mem ((c : Thread nD τ).loc main_v32) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end LocSE.Arr

end
-- ==== Proof.RefIsOut.lean ====
/-
  The reference program's result, read index by index, is the function `LocSE.out` of the two gathered arrays, the
  weights and the bias.

  The reference builds, for every query point, all 17 × 17 coordinate differences `P i - P j`, joins each with the length
  of `P j`, swaps the two neighbour axes and flattens the pair (i, triple slot) into 51 columns, so that column `3 i + e`
  of row `q` holds `P i e - P q e` (e < 2) or the length of `P q` (e = 2); with the neighbour's own two coordinates in
  front this is the 53-entry encoding. A contraction with the weights, the bias, a maximum with zero, and the gathered
  features joined behind give the output row. The sum of two squares starts from the zero word, which adds nothing.
-/
import proofs.«147481_j59691455480199_1_alg».proof.Proof.RefRead
import proofs.«147481_j59691455480199_1_alg».proof.Proof.Spec
import proofs.«147481_j59691455480199_1_alg».proof.Proof.Layout

noncomputable section

namespace LocSE.Ref

open Cert.ReferenceIdeal Cert.ReferenceIdeal.Gen Cert.ReferenceIdeal.Read
open Idealize.ShloMosaic Idealize.ShloMosaic.TcCoe Idealize.ShloMosaic.ValueIdx LocSE LocSE.Layout

variable (x0 : (⟨S4x32768x2, .f32⟩ : BufTy).Contents (Elt Ideal)) (x1 : (⟨S4x32768x32, .f32⟩ : BufTy).Contents (Elt Ideal))
variable (x2 : (⟨S53x32, .f32⟩ : BufTy).Contents (Elt Ideal)) (x3 : (⟨S32, .f32⟩ : BufTy).Contents (Elt Ideal))
variable (x4 : (⟨S4x32768x17, .i32⟩ : BufTy).Contents (Elt Ideal))

/-- The gathered coordinates of the neighbours of query point (b, n). -/
abbrev nbr (b : Fin 4) (n : Fin 32768) : Fin 17 → Fin 2 → EReal :=
  fun q e => val_main_v16 (F := Ideal) x0 x4 (ix4 b n q e)

/-- The difference array at (b, n, i, j, e) is `P i e - P j e`. -/
theorem diff_at (b : Fin 4) (n : Fin 32768) (i j : Fin 17) (e : Fin 2) :
    val_main_v38 (F := Ideal) x0 x4 (ix5 b n i j e) = nbr x0 x4 b n i e - nbr x0 x4 b n j e := by
  rw [val_main_v38_apply, val_main_v36_apply, val_main_v34_apply, val_main_v37_apply, val_main_v35_apply]
  have e1 : idx_main_v34 (idx_main_v36 (ix5 b n i j e)) = ix4 b n i e :=
    funext fun a => Fin.ext (by match a with | ⟨0, _⟩ => rfl | ⟨1, _⟩ => rfl | ⟨2, _⟩ => rfl | ⟨3, _⟩ => rfl)
  have e2 : idx_main_v35 (idx_main_v37 (ix5 b n i j e)) = ix4 b n j e :=
    funext fun a => Fin.ext (by match a with | ⟨0, _⟩ => rfl | ⟨1, _⟩ => rfl | ⟨2, _⟩ => rfl | ⟨3, _⟩ => rfl)
  rw [e1, e2]
  rfl

/-- The broadcast length array at (b, n, i, j, 0) is the length of `P j`. -/
theorem len_at (b : Fin 4) (n : Fin 32768) (i j : Fin 17) (u : Fin 1) :
    val_main_v41 (F := Ideal) x0 x4 (ix5 b n i j u) = len (nbr x0 x4 b n) j := by
  rw [val_main_v41_apply, val_main_v40_apply, val_main_v39_apply, val_main_call0_v2_apply, val_main_call0_v1_apply]
  have e1 : idx_main_call0_v2 (idx_main_v40 (idx_main_v41 (ix5 b n i j u))) = ix3 b n j :=
    funext fun a => Fin.ext (by match a with | ⟨0, _⟩ => rfl | ⟨1, _⟩ => rfl | ⟨2, _⟩ => rfl)
  rw [e1]
  show Ideal.sqrt (Ideal.ofBits .f32 0x00000000#32 + ∑ k : Fin 2, val_main_call0_v0 (F := Ideal) x0 x4 (idx_main_call0_v1 (ix3 b n j) k)) = _
  rw [Ideal.ofBits_zero_f32, zero_add]
  unfold len
  refine congrArg Ideal.sqrt (Finset.sum_congr rfl fun k _ => ?_)
  have e2 : idx_main_call0_v1 (ix3 b n j) k = ix4 b n j k :=
    funext fun a => Fin.ext (by match a with | ⟨0, _⟩ => rfl | ⟨1, _⟩ => rfl | ⟨2, _⟩ => rfl | ⟨3, _⟩ => rfl)
  rw [val_main_call0_v0_apply, e2]
  rfl

/-- The joined triples at (b, n, i, j, e): a difference for `e < 2`, the length of `P j` for `e = 2`. -/
theorem triple_at (b : Fin 4) (n : Fin 32768) (i j : Fin 17) (e : Fin 3) :
    val_main_v42 (F := Ideal) x0 x4 (ix5 b n i j e)
      = if h : e.val < 2 then nbr x0 x4 b n i ⟨e.val, h⟩ - nbr x0 x4 b n j ⟨e.val, h⟩ else len (nbr x0 x4 b n) j := by
  unfold val_main_v42
  by_cases h : e.val < 2
  · rw [dif_pos h]
    exact (concat5_last_left _ _ _ b n i j e ⟨e.val, h⟩ rfl).trans (diff_at x0 x4 b n i j ⟨e.val, h⟩)
  · rw [dif_neg h]
    exact (concat5_last_right _ _ _ b n i j e (0 : Fin 1) (by show 0 + 2 = e.val; have := e.isLt; omega)).trans
      (len_at x0 x4 b n i j 0)

/-- The 51 flattened columns of row `q`: column `c` is triple slot `c % 3` of the pair (c / 3, q). -/
theorem flat_at (b : Fin 4) (n : Fin 32768) (q : Fin 17) (c : Fin 51) :
    val_main_v44 (F := Ideal) x0 x4 (ix4 b n q c)
      = val_main_v42 (F := Ideal) x0 x4 (ix5 b n ⟨c.val / 3, by have := c.isLt; omega⟩ q ⟨c.val % 3, by omega⟩) := by
  rw [val_main_v44_apply, val_main_v43_apply]
  refine congrArg (val_main_v42 (F := Ideal) x0 x4) (funext fun a => Fin.ext ?_)
  have hb := b.isLt; have hn := n.isLt; have hq := q.isLt; have hc := c.isLt
  match a with
  | ⟨0, _⟩ => show (((b.val * 32768 + n.val) * 17 + q.val) * 51 + c.val) / 28409856 = b.val; omega
  | ⟨1, _⟩ => show (((b.val * 32768 + n.val) * 17 + q.val) * 51 + c.val) / 867 % 32768 = n.val; omega
  | ⟨2, _⟩ => show (((b.val * 32768 + n.val) * 17 + q.val) * 51 + c.val) / 3 % 17 = c.val / 3; omega
  | ⟨3, _⟩ => show (((b.val * 32768 + n.val) * 17 + q.val) * 51 + c.val) / 51 % 17 = q.val; omega
  | ⟨4, _⟩ => show (((b.val * 32768 + n.val) * 17 + q.val) * 51 + c.val) % 3 = c.val % 3; omega

/-- The reference's 53-column array is the encoding of the gathered coordinates. -/
theorem enc_at (b : Fin 4) (n : Fin 32768) (q : Fin 17) (k : Fin 53) :
    val_main_v45 (F := Ideal) x0 x4 (ix4 b n q k) = enc (nbr x0 x4 b n) q k := by
  unfold val_main_v45 enc
  by_cases h : k.val < 2
  · rw [dif_pos h]
    exact concat4_last_left _ _ _ b n q k ⟨k.val, h⟩ rfl
  · rw [dif_neg h]
    have hk := k.isLt
    refine (concat4_last_right _ _ _ b n q k ⟨k.val - 2, by omega⟩ (by show k.val - 2 + 2 = k.val; omega)).trans ?_
    rw [flat_at, triple_at]

/-- The rectified dense layer at (b, n, q, u). -/
theorem dense_at (b : Fin 4) (n : Fin 32768) (q : Fin 17) (u : Fin 32) :
    val_main_v50 (F := Ideal) x0 x2 x3 x4 (ix4 b n q u)
      = max ((∑ k : Fin 53, enc (nbr x0 x4 b n) q k * x2 (ix2 k u)) + x3 (ix1 u)) zero := by
  rw [val_main_v50_apply, val_main_v49_apply, val_main_v46_apply, val_main_v48_apply, val_main_v47_apply,
    val_main_call1_v0_apply, val_main_call1_cst_apply]
  have e1 : idx_main_v47 (idx_main_v48 (ix4 b n q u)) = ix1 u :=
    funext fun a => Fin.ext (by match a with | ⟨0, _⟩ => rfl)
  rw [e1]
  show max ((∑ k : Fin 53, val_main_v45 (F := Ideal) x0 x4 (lidx_main_v46 (ix4 b n q u) k) * x2 (ridx_main_v46 (ix4 b n q u) k)) + x3 (ix1 u)) zero = _
  refine congrArg (fun s => max (s + x3 (ix1 u)) zero) (Finset.sum_congr rfl fun k _ => ?_)
  have e2 : lidx_main_v46 (ix4 b n q u) k = ix4 b n q k :=
    funext fun a => Fin.ext (by match a with | ⟨0, _⟩ => rfl | ⟨1, _⟩ => rfl | ⟨2, _⟩ => rfl | ⟨3, _⟩ => rfl)
  have e3 : ridx_main_v46 (ix4 b n q u) k = ix2 k u :=
    funext fun a => Fin.ext (by match a with | ⟨0, _⟩ => rfl | ⟨1, _⟩ => rfl)
  rw [e2, e3, enc_at]

/-- The reference's result array is `LocSE.out` of the gathered coordinates and features, the weights and the bias. -/
theorem result_eq :
    val_main_v51 (F := Ideal) x0 x1 x2 x3 x4
      = out (val_main_v16 (F := Ideal) x0 x4) (val_main_v33 (F := Ideal) x1 x4) x2 x3 := by
  funext i
  obtain ⟨b, n, q, u, rfl⟩ : ∃ (b : Fin 4) (n : Fin 32768) (q : Fin 17) (u : Fin 64), i = ix4 b n q u :=
    ⟨i 0, i 1, i 2, i 3, eq_ix4 i⟩
  unfold val_main_v51 out row
  by_cases h : u.val < 32
  · rw [dif_pos h]
    exact (concat4_last_left _ _ _ b n q u ⟨u.val, h⟩ rfl).trans (dense_at x0 x2 x3 x4 b n q ⟨u.val, h⟩)
  · rw [dif_neg h]
    have hu := u.isLt
    exact concat4_last_right _ _ _ b n q u ⟨u.val - 32, by omega⟩ (by show u.val - 32 + 32 = u.val; omega)

end LocSE.Ref

end
-- ==== Proof.HostArrays.lean ====
/-
  The two arrays the kernel's region finds already computed — the gathered neighbour coordinates and the gathered
  neighbour features — are the very arrays the reference computes first: both programs build the same pair of indices
  (the batch number, the neighbour's number with negative numbers wrapped once) and gather with them. The gather is
  never opened: the two sides apply it to the same arguments.
-/
import proofs.«147481_j59691455480199_1_alg».proof.Proof.Gen.KernelIdeal.Frame
import proofs.«147481_j59691455480199_1_alg».proof.Proof.RefRead
import Idealize.ShloMosaic.Lib.StableHlo.Run

set_option maxRecDepth 16384

noncomputable section

namespace LocSE.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The gathered coordinates the region finds are the reference's gathered coordinates of the same arguments. -/
theorem pts_eq (c : Dev nD) :
    (V m c main_v16 : S4x32768x17x2.Idx → EReal)
      = Cert.ReferenceIdeal.Read.val_main_v16 (F := Ideal) (m ((c : Thread nD τ).loc main_arg0)) (m ((c : Thread nD τ).loc main_arg4)) := by
  dsimp only [V, hostOps0]
  after_results_simp
  rfl

/-- The gathered features the region finds are the reference's gathered features of the same arguments. -/
theorem feats_eq (c : Dev nD) :
    (V m c main_v31 : S4x32768x17x32.Idx → EReal)
      = Cert.ReferenceIdeal.Read.val_main_v33 (F := Ideal) (m ((c : Thread nD τ).loc main_arg1)) (m ((c : Thread nD τ).loc main_arg4)) := by
  dsimp only [V, hostOps0]
  after_results_simp
  rfl

end LocSE.Host

end
-- ==== Proof.lean ====
/-
  The certificate of the local-spatial-encoding kernel against its jnp reference.

  Both programs gather, for each of 4 × 32768 query points, the coordinates and the features of its 17 neighbours,
  encode every neighbour by its own coordinates, its coordinate differences against all 17 neighbours and its Euclidean
  length (53 numbers), pass the encoding through one dense layer with a maximum against zero, and join the neighbour's
  features behind. The kernel does the gathers on the host and everything else block by block in one pallas_call, with
  the encodings kept in a scratch buffer and rounded to a 16-bit format before the matrix product; the reference builds
  the encodings with broadcasts, a transpose and a reshape and contracts once. Over the extended reals the rounding is
  the identity and both are the one function `LocSE.out` of the gathered arrays (Proof/Spec.lean): the kernel by
  Proof/KernelScratch.lean, KernelOut.lean and KernelArr.lean over the generated frame run, the reference by
  Proof/RefIsOut.lean over its run read back stage by stage (Proof/RefRun.lean, Proof/RefRead.lean), the gathered arrays
  being the same terms on both sides (Proof/HostArrays.lean).
  No law of arithmetic beyond reading sums and products entry by entry is used, so the finiteness of the inputs is
  never opened. The ideal pass rewrote nothing, so the idealization claim is trivial.
-/
import proofs.«147481_j59691455480199_1_alg».proof.Defs
import proofs.«147481_j59691455480199_1_alg».proof.Proof.Gen.Kernel
import proofs.«147481_j59691455480199_1_alg».proof.Proof.Gen.Kernel.Frame
import proofs.«147481_j59691455480199_1_alg».proof.Proof.Gen.KernelIdeal
import proofs.«147481_j59691455480199_1_alg».proof.Proof.Gen.KernelIdeal.Frame
import proofs.«147481_j59691455480199_1_alg».proof.Proof.Gen.KernelIdeal.Value
import proofs.«147481_j59691455480199_1_alg».proof.Proof.Gen.ReferenceIdeal
import proofs.«147481_j59691455480199_1_alg».proof.Proof.RefRun
import proofs.«147481_j59691455480199_1_alg».proof.Proof.RefRead
import proofs.«147481_j59691455480199_1_alg».proof.Proof.Gen.Pre_finite_inputs
import proofs.«147481_j59691455480199_1_alg».proof.Proof.KernelArr
import proofs.«147481_j59691455480199_1_alg».proof.Proof.RefIsOut
import proofs.«147481_j59691455480199_1_alg».proof.Proof.HostArrays
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the output rows of the same gathered arrays, weights and bias. -/
theorem algebraic : Cert.algebraic_KernelIdeal_ReferenceIdeal := by
  intro m ρ m' ρ' _ hagree
  refine ⟨fun c => LocSE.Arr.whole m c, LocSE.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, LocSE.Ref.result_eq, (hagree c).1, (hagree c).2.1, (hagree c).2.2.1,
    (hagree c).2.2.2.1, (hagree c).2.2.2.2]
  show _ = LocSE.out (Cert.KernelIdeal.Gen.V m c Cert.KernelIdeal.main_v16) (Cert.KernelIdeal.Gen.V m c Cert.KernelIdeal.main_v31)
    (Cert.KernelIdeal.Gen.V m c Cert.KernelIdeal.main_arg2) (Cert.KernelIdeal.Gen.V m c Cert.KernelIdeal.main_arg3)
  rw [LocSE.Host.pts_eq, LocSE.Host.feats_eq, Cert.KernelIdeal.Gen.V_main_arg2, Cert.KernelIdeal.Gen.V_main_arg3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
